-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S200000x16x64 : Shape := ⟨3, ![200000, 16, 64]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x64 : Shape := ⟨2, ![64, 64]⟩
abbrev S_ : Shape := ⟨0, ![]⟩
abbrev S200000x128 : Shape := ⟨2, ![200000, 128]⟩
abbrev S200000x96 : Shape := ⟨2, ![200000, 96]⟩
abbrev S1x96 : Shape := ⟨2, ![1, 96]⟩
abbrev S1x64 : Shape := ⟨2, ![1, 64]⟩
abbrev S200000 : Shape := ⟨1, ![200000]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S200000x16x64 : S_.BroadcastsInDim S200000x16x64 (![] : Fin 0 → Fin S200000x16x64.rank)
  reducesTo_S200000x16x64_S_d0_1_2 : S200000x16x64.ReducesTo [0, 1, 2] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  concatenates_S200000x64_S200000x64_S200000x128_d1 : Shape.Concatenates [S200000x64, S200000x64] S200000x128 1
  bcast_S96_S1x96_1 : S96.BroadcastsInDim S1x96 (![1] : Fin 1 → Fin S1x96.rank)
  bcast_S1x96_S200000x96_0_1 : S1x96.BroadcastsInDim S200000x96 (![0, 1] : Fin 2 → Fin S200000x96.rank)
  bcast_S_S200000x96 : S_.BroadcastsInDim S200000x96 (![] : Fin 0 → Fin S200000x96.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x16x64_S200000x64_d1 : S200000x16x64.ReducesTo [1] S200000x64
  reducesTo_S200000x128_S200000_d1 : S200000x128.ReducesTo [1] S200000
  bcast_S_S200000 : S_.BroadcastsInDim S200000 (![] : Fin 0 → Fin S200000.rank)
  reducesTo_S200000_S_d0 : S200000.ReducesTo [0] S_
  dot_S200000x128_S128x96_S200000x96_1_0_0_1_n_n_wf : DotDims.WF S200000x128 S128x96 S200000x96 [1] [0] [0] [1] [] []
  dot_S200000x96_S96x64_S200000x64_1_0_0_1_n_n_wf : DotDims.WF S200000x96 S96x64 S200000x64 [1] [0] [0] [1] [] []
  dot_S200000x64_S64x64_S200000x64_1_0_0_1_n_n_wf : DotDims.WF S200000x64 S64x64 S200000x64 [1] [0] [0] [1] [] []

variable [Facts]

def dot_S200000x128_S128x96_S200000x96_1_0_0_1_n_n : DotDims S200000x128 S128x96 S200000x96 where
  lhsContracting := [1]
  rhsContracting := [0]
  lhsNonContracting := [0]
  rhsNonContracting := [1]
  lhsBatch := []
  rhsBatch := []
  wf := dot_S200000x128_S128x96_S200000x96_1_0_0_1_n_n_wf
def dot_S200000x96_S96x64_S200000x64_1_0_0_1_n_n : DotDims S200000x96 S96x64 S200000x64 where
  lhsContracting := [1]
  rhsContracting := [0]
  lhsNonContracting := [0]
  rhsNonContracting := [1]
  lhsBatch := []
  rhsBatch := []
  wf := dot_S200000x96_S96x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def fn_part4 {F : FTy → Type} [FloatOps F] (main_arg9 : FVec F S64x64 .f32) (main_arg10 : FVec F S64 .f32) (main_v53 : IVec S_ 1) (main_v65 : FVec F S200000x64 .f32) (main_v70 : FVec F S200000x64 .f32) (main_cst_22 : FVec F S_ .f32) : IVec S_ 1 :=
  let main_v71 : FVec F S200000x64 .f32 := broadcastInDim S200000x64 ![] bcast_S_S200000x64 main_cst_22
  let main_v72 : FVec F S200000x64 .f32 := maximumf main_v70 main_v71
  let main_v73 : FVec F S200000x64 .f32 := (fun l r => Host.dotGeneral dot_S200000x64_S64x64_S200000x64_1_0_0_1_n_n none l r) main_v72 main_arg9
  let main_v74 : FVec F S1x64 .f32 := broadcastInDim S1x64 ![1] bcast_S64_S1x64_1 main_arg10
  let main_v75 : FVec F S200000x64 .f32 := broadcastInDim S200000x64 ![0, 1] bcast_S1x64_S200000x64_0_1 main_v74
  let main_v76 : FVec F S200000x64 .f32 := addf main_v73 main_v75
  let main_v77 : FVec F S200000x64 .f32 := Host.tanh main_v76
  let main_v78 : FVec F S200000x128 .f32 := (fun a b => concatenate S200000x128 1 [⟨S200000x64, a⟩, ⟨S200000x64, b⟩] concatenates_S200000x64_S200000x64_S200000x128_d1) main_v65 main_v77
  let main_v79 : FVec F S200000x128 .f32 := mulf main_v78 main_v78
  let main_cst_23 : FVec F S_ .f32 := constant S_ .f32 0x00000000#32
  let main_v80 : FVec F S200000 .f32 := (fun x v => Host.reduceAdd x v reducesTo_S200000x128_S200000_d1 h_S_) main_v79 main_cst_23
  let main_cst_24 : FVec F S_ .f32 := constant S_ .f32 0x00000000#32
  let main_v81 : FVec F S200000 .f32 := broadcastInDim S200000 ![] bcast_S_S200000 main_cst_24
  let main_v82 : IVec S200000 1 := cmpf .ogt main_v80 main_v81
  let main_c_25 : IVec S_ 1 := constantI S_ 1 1#1
  let main_v83 : IVec S_ 1 := (fun x v => Host.reduce IntOp.andi x v reducesTo_S200000_S_d0 h_S_) main_v82 main_c_25
  let main_v84 : IVec S_ 1 := andi main_v53 main_v83
  main_v84

def fn_part3 {F : FTy → Type} [FloatOps F] (main_arg0 : FVec F S200000x64 .f32) (main_arg1 : FVec F S200000x64 .f32) (main_arg2 : FVec F S200000x16x64 .f32) (main_arg3 : FVec F S128x96 .f32) (main_arg4 : FVec F S96 .f32) (main_arg5 : FVec F S96x64 .f32) (main_arg6 : FVec F S64 .f32) (main_arg7 : FVec F S64x64 .f32) (main_arg8 : FVec F S64 .f32) (main_arg9 : FVec F S64x64 .f32) (main_arg10 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S200000x128 .f32 := (fun a b => concatenate S200000x128 1 [⟨S200000x64, a⟩, ⟨S200000x64, b⟩] concatenates_S200000x64_S200000x64_S200000x128_d1) main_arg0 main_arg1
  let main_v55 : FVec F S200000x96 .f32 := (fun l r => Host.dotGeneral dot_S200000x128_S128x96_S200000x96_1_0_0_1_n_n none l r) main_v54 main_arg3
  let main_v56 : FVec F S1x96 .f32 := broadcastInDim S1x96 ![1] bcast_S96_S1x96_1 main_arg4
  let main_v57 : FVec F S200000x96 .f32 := broadcastInDim S200000x96 ![0, 1] bcast_S1x96_S200000x96_0_1 main_v56
  let main_v58 : FVec F S200000x96 .f32 := addf main_v55 main_v57
  let main_cst_20 : FVec F S_ .f32 := constant S_ .f32 0x00000000#32
  let main_v59 : FVec F S200000x96 .f32 := broadcastInDim S200000x96 ![] bcast_S_S200000x96 main_cst_20
  let main_v60 : FVec F S200000x96 .f32 := maximumf main_v58 main_v59
  let main_v61 : FVec F S200000x64 .f32 := (fun l r => Host.dotGeneral dot_S200000x96_S96x64_S200000x64_1_0_0_1_n_n none l r) main_v60 main_arg5
  let main_v62 : FVec F S1x64 .f32 := broadcastInDim S1x64 ![1] bcast_S64_S1x64_1 main_arg6
  let main_v63 : FVec F S200000x64 .f32 := broadcastInDim S200000x64 ![0, 1] bcast_S1x64_S200000x64_0_1 main_v62
  let main_v64 : FVec F S200000x64 .f32 := addf main_v61 main_v63
  let main_v65 : FVec F S200000x64 .f32 := Host.tanh main_v64
  let main_cst_21 : FVec F S_ .f32 := constant S_ .f32 0x00000000#32
  let main_v66 : FVec F S200000x64 .f32 := (fun x v => Host.reduceAdd x v reducesTo_S200000x16x64_S200000x64_d1 h_S_) main_arg2 main_cst_21
  let main_v67 : FVec F S200000x64 .f32 := (fun l r => Host.dotGeneral dot_S200000x64_S64x64_S200000x64_1_0_0_1_n_n none l r) main_v66 main_arg7
  let main_v68 : FVec F S1x64 .f32 := broadcastInDim S1x64 ![1] bcast_S64_S1x64_1 main_arg8
  let main_v69 : FVec F S200000x64 .f32 := broadcastInDim S200000x64 ![0, 1] bcast_S1x64_S200000x64_0_1 main_v68
  let main_v70 : FVec F S200000x64 .f32 := addf main_v67 main_v69
  let main_cst_22 : FVec F S_ .f32 := constant S_ .f32 0x00000000#32
  fn_part4 (F := F) main_arg9 main_arg10 main_v53 main_v65 main_v70 main_cst_22

def fn_part2 {F : FTy → Type} [FloatOps F] (main_arg0 : FVec F S200000x64 .f32) (main_arg1 : FVec F S200000x64 .f32) (main_arg2 : FVec F S200000x16x64 .f32) (main_arg3 : FVec F S128x96 .f32) (main_arg4 : FVec F S96 .f32) (main_arg5 : FVec F S96x64 .f32) (main_arg6 : FVec F S64 .f32) (main_arg7 : FVec F S64x64 .f32) (main_arg8 : FVec F S64 .f32) (main_arg9 : FVec F S64x64 .f32) (main_arg10 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg0 main_arg1 main_arg2 main_arg3 main_arg4 main_arg5 main_arg6 main_arg7 main_arg8 main_arg9 main_arg10 main_v48 main_v49 main_v50

def fn_part1 {F : FTy → Type} [FloatOps F] (main_arg0 : FVec F S200000x64 .f32) (main_arg1 : FVec F S200000x64 .f32) (main_arg2 : FVec F S200000x16x64 .f32) (main_arg3 : FVec F S128x96 .f32) (main_arg4 : FVec F S96 .f32) (main_arg5 : FVec F S96x64 .f32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x64 .f32 := Host.absf main_arg5
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_v33

def fn {F : FTy → Type} [FloatOps F] (main_arg0 : FVec F S200000x64 .f32) (main_arg1 : FVec F S200000x64 .f32) (main_arg2 : FVec F S200000x16x64 .f32) (main_arg3 : FVec F S128x96 .f32) (main_arg4 : FVec F S96 .f32) (main_arg5 : FVec F S96x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S200000x16x64 .f32 := Host.absf main_arg2
  let main_cst_2 : FVec F S_ .f32 := constant S_ .f32 0x7F800000#32
  let main_v10 : FVec F S200000x16x64 .f32 := broadcastInDim S200000x16x64 ![] bcast_S_S200000x16x64 main_cst_2
  let main_v11 : IVec S200000x16x64 1 := cmpf .olt main_v9 main_v10
  let main_c_3 : IVec S_ 1 := constantI S_ 1 1#1
  let main_v12 : IVec S_ 1 := (fun x v => Host.reduce IntOp.andi x v reducesTo_S200000x16x64_S_d0_1_2 h_S_) main_v11 main_c_3
  let main_v13 : IVec S_ 1 := andi main_v8 main_v12
  let main_v14 : FVec F S128x96 .f32 := Host.absf main_arg3
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg0 main_arg1 main_arg2 main_arg3 main_arg4 main_arg5 main_arg6 main_arg7 main_arg8 main_arg9 main_arg10 main_v13 main_v16
-- ==== Kernel.lean ====
abbrev S200000x64 : Shape := ⟨2, ![200000, 64]⟩
abbrev S200000x16x64 : Shape := ⟨3, ![200000, 16, 64]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x64 : Shape := ⟨2, ![64, 64]⟩
abbrev S200000x8x128 : Shape := ⟨3, ![200000, 8, 128]⟩
abbrev S64x96 : Shape := ⟨2, ![64, 96]⟩
abbrev S128x64 : Shape := ⟨2, ![128, 64]⟩
abbrev S1x96 : Shape := ⟨2, ![1, 96]⟩
abbrev S1x64 : Shape := ⟨2, ![1, 64]⟩
abbrev S200000x128 : Shape := ⟨2, ![200000, 128]⟩
abbrev S2000x64 : Shape := ⟨2, ![2000, 64]⟩
abbrev S2000x8x128 : Shape := ⟨3, ![2000, 8, 128]⟩
abbrev S2000x128 : Shape := ⟨2, ![2000, 128]⟩
abbrev S2000x96 : Shape := ⟨2, ![2000, 96]⟩
abbrev S2000 : Shape := ⟨1, ![2000]⟩
abbrev S2000x1 : Shape := ⟨2, ![2000, 1]⟩

abbrev nBuf : Space → Nat
  | .hbm => 20
  | .vmem => 17
  | .smem => 0
  | _ => 0

abbrev bufTy : (tb : Table) → Fin (tcTables nBuf tb) → BufTy
  | .hbm, ⟨0, _⟩ => ⟨S200000x64, .f32⟩
  | .hbm, ⟨1, _⟩ => ⟨S200000x64, .f32⟩
  | .hbm, ⟨2, _⟩ => ⟨S200000x16x64, .f32⟩
  | .hbm, ⟨3, _⟩ => ⟨S128x96, .f32⟩
  | .hbm, ⟨4, _⟩ => ⟨S96, .f32⟩
  | .hbm, ⟨5, _⟩ => ⟨S96x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S200000x8x128, .f32⟩
  | .hbm, ⟨12, _⟩ => ⟨S64x96, .f32⟩
  | .hbm, ⟨13, _⟩ => ⟨S64x96, .f32⟩
  | .hbm, ⟨14, _⟩ => ⟨S128x64, .f32⟩
  | .hbm, ⟨15, _⟩ => ⟨S1x96, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S200000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x8x128, .f32⟩
  | .local _ .vmem, ⟨5, _⟩ => ⟨S2000x8x128, .f32⟩
  | .local _ .vmem, ⟨6, _⟩ => ⟨S64x96, .f32⟩
  | .local _ .vmem, ⟨7, _⟩ => ⟨S64x96, .f32⟩
  | .local _ .vmem, ⟨8, _⟩ => ⟨S1x96, .f32⟩
  | .local _ .vmem, ⟨9, _⟩ => ⟨S96x64, .f32⟩
  | .local _ .vmem, ⟨10, _⟩ => ⟨S1x64, .f32⟩
  | .local _ .vmem, ⟨11, _⟩ => ⟨S128x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S2000x128, .f32⟩
  | .local _ .vmem, ⟨16, _⟩ => ⟨S2000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S200000x16x64_S200000x8x128 : S200000x16x64.ShapeCasts S200000x8x128
  slices_S128x96_S64x96_0_0 : S128x96.Slices ![0, 0] S64x96
  slices_S128x96_S64x96_64_0 : S128x96.Slices ![64, 0] S64x96
  concatenates_S64x64_S64x64_S128x64_d0 : Shape.Concatenates [S64x64, S64x64] S128x64 0
  shapeCasts_S96_S1x96 : S96.ShapeCasts S1x96
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x8x128_S2000x8x128_0_0_0 : ∀ a, (![0, 0, 0] : Fin 3 → Nat) a + S2000x8x128.size a ≤ S2000x8x128.size a
  h_S2000x8x128 : 0 < S2000x8x128.numel
  shapeCasts_S2000x8x128_S2000x8x128 : S2000x8x128.ShapeCasts S2000x8x128
  reduces_S2000x8x128_S2000x128 : S2000x8x128.Reduces [1] S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  concatenates_S2000x64_S2000x64_S2000x128_d1 : Shape.Concatenates [S2000x64, S2000x64] S2000x128 1
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  dot_S2000x64_S64x96_S2000x96_1_0_0_1_n_n_wf : DotDims.WF S2000x64 S64x96 S2000x96 [1] [0] [0] [1] [] []
  dot_S2000x96_S96x64_S2000x64_1_0_0_1_n_n_wf : DotDims.WF S2000x96 S96x64 S2000x64 [1] [0] [0] [1] [] []
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S200000x64.size a
  hwx0_1 : ∀ i : grid0.Coords, EltTy.bits .f32 = 32 ∨ (Rect.block (s := S200000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8x128.size a ≤ S200000x8x128.size a
  hwx0_2 : ∀ i : grid0.Coords, EltTy.bits .f32 = 32 ∨ (Rect.block (s := S200000x8x128) S2000x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x96.size a ≤ S64x96.size a
  hwx0_3 : ∀ i : grid0.Coords, EltTy.bits .f32 = 32 ∨ (Rect.block (s := S64x96) S64x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x96.size a ≤ S64x96.size a
  hwx0_4 : ∀ i : grid0.Coords, EltTy.bits .f32 = 32 ∨ (Rect.block (s := S64x96) S64x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x64.size a ≤ S96x64.size a
  hwx0_6 : ∀ i : grid0.Coords, EltTy.bits .f32 = 32 ∨ (Rect.block (s := S96x64) S96x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S200000x128.size a
  hwx0_12 : ∀ i : grid0.Coords, EltTy.bits .f32 = 32 ∨ (Rect.block (s := S200000x128) S2000x128.size (cc0_transform_12 i) (hinb0_12 i)).WholeWords (EltTy.packing .f32)

variable [Facts₀]

def dot_S2000x64_S64x96_S2000x96_1_0_0_1_n_n : DotDims S2000x64 S64x96 S2000x96 where
  lhsContracting := [1]
  rhsContracting := [0]
  lhsNonContracting := [0]
  rhsNonContracting := [1]
  lhsBatch := []
  rhsBatch := []
  wf := dot_S2000x64_S64x96_S2000x96_1_0_0_1_n_n_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S96x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S200000x64 : Shape := ⟨2, ![200000, 64]⟩
abbrev S200000x16x64 : Shape := ⟨3, ![200000, 16, 64]⟩
abbrev S128x96 : Shape := ⟨2, ![128, 96]⟩
abbrev S96 : Shape := ⟨1, ![96]⟩
abbrev S96x64 : Shape := ⟨2, ![96, 64]⟩
abbrev S64 : Shape := ⟨1, ![64]⟩
abbrev S64x64 : Shape := ⟨2, ![64, 64]⟩
abbrev S200000x128 : Shape := ⟨2, ![200000, 128]⟩
abbrev S200000x96 : Shape := ⟨2, ![200000, 96]⟩
abbrev S1x96 : Shape := ⟨2, ![1, 96]⟩
abbrev S_ : Shape := ⟨0, ![]⟩
abbrev S1x64 : Shape := ⟨2, ![1, 64]⟩
abbrev S200000 : Shape := ⟨1, ![200000]⟩
abbrev S200000x1 : Shape := ⟨2, ![200000, 1]⟩

abbrev nBuf : Space → Nat
  | .hbm => 46
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S200000x64, .f32⟩
  | .hbm, ⟨2, _⟩ => ⟨S200000x16x64, .f32⟩
  | .hbm, ⟨3, _⟩ => ⟨S128x96, .f32⟩
  | .hbm, ⟨4, _⟩ => ⟨S96, .f32⟩
  | .hbm, ⟨5, _⟩ => ⟨S96x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S200000x128, .f32⟩
  | .hbm, ⟨12, _⟩ => ⟨S200000x96, .f32⟩
  | .hbm, ⟨13, _⟩ => ⟨S1x96, .f32⟩
  | .hbm, ⟨14, _⟩ => ⟨S200000x96, .f32⟩
  | .hbm, ⟨15, _⟩ => ⟨S200000x96, .f32⟩
  | .hbm, ⟨16, _⟩ => ⟨S_, .f32⟩
  | .hbm, ⟨17, _⟩ => ⟨S200000x96, .f32⟩
  | .hbm, ⟨18, _⟩ => ⟨S200000x96, .f32⟩
  | .hbm, ⟨19, _⟩ => ⟨S200000x64, .f32⟩
  | .hbm, ⟨20, _⟩ => ⟨S1x64, .f32⟩
  | .hbm, ⟨21, _⟩ => ⟨S200000x64, .f32⟩
  | .hbm, ⟨22, _⟩ => ⟨S200000x64, .f32⟩
  | .hbm, ⟨23, _⟩ => ⟨S200000x64, .f32⟩
  | .hbm, ⟨24, _⟩ => ⟨S_, .f32⟩
  | .hbm, ⟨25, _⟩ => ⟨S200000x64, .f32⟩
  | .hbm, ⟨26, _⟩ => ⟨S200000x64, .f32⟩
  | .hbm, ⟨27, _⟩ => ⟨S1x64, .f32⟩
  | .hbm, ⟨28, _⟩ => ⟨S200000x64, .f32⟩
  | .hbm, ⟨29, _⟩ => ⟨S200000x64, .f32⟩
  | .hbm, ⟨30, _⟩ => ⟨S_, .f32⟩
  | .hbm, ⟨31, _⟩ => ⟨S200000x64, .f32⟩
  | .hbm, ⟨32, _⟩ => ⟨S200000x64, .f32⟩
  | .hbm, ⟨33, _⟩ => ⟨S200000x64, .f32⟩
  | .hbm, ⟨34, _⟩ => ⟨S1x64, .f32⟩
  | .hbm, ⟨35, _⟩ => ⟨S200000x64, .f32⟩
  | .hbm, ⟨36, _⟩ => ⟨S200000x64, .f32⟩
  | .hbm, ⟨37, _⟩ => ⟨S200000x64, .f32⟩
  | .hbm, ⟨38, _⟩ => ⟨S200000x128, .f32⟩
  | .hbm, ⟨39, _⟩ => ⟨S200000x128, .f32⟩
  | .hbm, ⟨40, _⟩ => ⟨S_, .f32⟩
  | .hbm, ⟨41, _⟩ => ⟨S200000, .f32⟩
  | .hbm, ⟨42, _⟩ => ⟨S200000x1, .f32⟩
  | .hbm, ⟨43, _⟩ => ⟨S200000x1, .f32⟩
  | .hbm, ⟨44, _⟩ => ⟨S200000x128, .f32⟩
  | .hbm, ⟨45, _⟩ => ⟨S200000x128, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_cst : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_call2_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]

class Facts₀ : Prop where
  concatenates_S200000x64_S200000x64_S200000x128_d1 : Shape.Concatenates [S200000x64, S200000x64] S200000x128 1
  bcast_S96_S1x96_1 : S96.BroadcastsInDim S1x96 (![1] : Fin 1 → Fin S1x96.rank)
  bcast_S1x96_S200000x96_0_1 : S1x96.BroadcastsInDim S200000x96 (![0, 1] : Fin 2 → Fin S200000x96.rank)
  bcast_S_S200000x96 : S_.BroadcastsInDim S200000x96 (![] : Fin 0 → Fin S200000x96.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x16x64_S200000x64_d1 : S200000x16x64.ReducesTo [1] S200000x64
  h_S_ : 0 < S_.numel
  bcast_S_S200000x64 : S_.BroadcastsInDim S200000x64 (![] : Fin 0 → Fin S200000x64.rank)
  reducesTo_S200000x128_S200000_d1 : S200000x128.ReducesTo [1] S200000
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  dot_S200000x128_S128x96_S200000x96_1_0_0_1_n_n_wf : DotDims.WF S200000x128 S128x96 S200000x96 [1] [0] [0] [1] [] []
  dot_S200000x96_S96x64_S200000x64_1_0_0_1_n_n_wf : DotDims.WF S200000x96 S96x64 S200000x64 [1] [0] [0] [1] [] []
  dot_S200000x64_S64x64_S200000x64_1_0_0_1_n_n_wf : DotDims.WF S200000x64 S64x64 S200000x64 [1] [0] [0] [1] [] []

variable [Facts₀]

def dot_S200000x128_S128x96_S200000x96_1_0_0_1_n_n : DotDims S200000x128 S128x96 S200000x96 where
  lhsContracting := [1]
  rhsContracting := [0]
  lhsNonContracting := [0]
  rhsNonContracting := [1]
  lhsBatch := []
  rhsBatch := []
  wf := dot_S200000x128_S128x96_S200000x96_1_0_0_1_n_n_wf
def dot_S200000x96_S96x64_S200000x64_1_0_0_1_n_n : DotDims S200000x96 S96x64 S200000x64 where
  lhsContracting := [1]
  rhsContracting := [0]
  lhsNonContracting := [0]
  rhsNonContracting := [1]
  lhsBatch := []
  rhsBatch := []
  wf := dot_S200000x96_S96x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.RowMath.lean ====
/-
  One node's row of the network, as mathematics on the extended reals.

  A row is computed from the node's 64 features, its 64 hidden values and its 16 × 64 mailbox by two small two-layer
  networks (an affine layer, max with 0, an affine layer, tanh), whose 64 + 64 outputs are joined into a vector r of
  128 entries and divided by the Euclidean norm of r.  Two arrangements of this computation are compared:

  * the plain one: the features and hidden values are joined into one vector of 128 before the first layer of the first
    network; the mailbox is summed over its 16 messages before the first layer of the second; the result is r / √(Σ r²);
  * the re-laid one: the first layer of the first network is the sum of two products, one with the upper 64 rows of its
    weight matrix and one with the lower 64; the mailbox is read as 8 rows of 128 lanes (message 2d' + h, entry e at row
    d', lane 64 h + e), summed over the 8 rows, and multiplied by the weight matrix stacked twice; the result is
    r · (Σ r²)^(-1/2).

  The joined sum splits into its two halves by associativity alone.  The lane arrangement needs distributivity,
  (a + b) · w = a · w + b · w, which on the extended reals holds for finite a, b, w: the mailbox and the second
  network's first weight matrix are assumed finite.  The two normalisations agree when Σ r² > 0 (at 0 the quotient is
  0 / 0 and the product 0 · ∞).
-/
import Idealize.ShloMosaic.PureOps.Ideal

open scoped BigOperators
open Idealize.ShloMosaic

noncomputable section

namespace Cert.NodeNet

/-! ## The pieces -/

/-- An affine layer: entry k of x · w + β. -/
def dense {a b : ℕ} (x : Fin a → EReal) (w : Fin a → Fin b → EReal) (β : Fin b → EReal) (k : Fin b) : EReal :=
  (∑ j, x j * w j k) + β k

/-- An affine layer on two inputs with a weight matrix each: entry k of x · wx + y · wy + β. -/
def dense2 {a b : ℕ} (x y : Fin a → EReal) (wx wy : Fin a → Fin b → EReal) (β : Fin b → EReal) (k : Fin b) : EReal :=
  ((∑ j, x j * wx j k) + (∑ j, y j * wy j k)) + β k

/-- The second half of a network: max with 0, an affine layer, tanh. -/
def head {b c : ℕ} (h : Fin b → EReal) (w : Fin b → Fin c → EReal) (β : Fin c → EReal) (q : Fin c) : EReal :=
  Ideal.tanh (dense (fun k => max (h k) 0) w β q)

/-- Message 2d' + h of the mailbox sits at row d' of the 8 × 128 reading, in the half h = l / 64 of the lanes. -/
def message (d' : Fin 8) (l : Fin 128) : Fin 16 := ⟨2 * d'.val + l.val / 64, by have := d'.isLt; have := l.isLt; omega⟩

/-- Lane l of the 8 × 128 reading holds entry l mod 64 of its message. -/
def entry (l : Fin 128) : Fin 64 := ⟨l.val % 64, Nat.mod_lt _ (by norm_num)⟩

/-- The plain arrangement's vector r before normalisation. -/
def refVec (nf nh : Fin 64 → EReal) (mb : Fin 16 → Fin 64 → EReal) (w1a : Fin 128 → Fin 96 → EReal) (b1a : Fin 96 → EReal)
    (w1b : Fin 96 → Fin 64 → EReal) (b1b : Fin 64 → EReal) (w2a : Fin 64 → Fin 64 → EReal) (b2a : Fin 64 → EReal)
    (w2b : Fin 64 → Fin 64 → EReal) (b2b : Fin 64 → EReal) : Fin 128 → EReal :=
  Fin.append (head (dense (Fin.append nf nh : Fin 128 → EReal) w1a b1a) w1b b1b)
    (head (dense (fun e => ∑ d, mb d e) w2a b2a) w2b b2b)

/-- The re-laid arrangement's vector r before normalisation, from the pieces as that arrangement reads them. -/
def kerVec (nf nh : Fin 64 → EReal) (mbr : Fin 8 → Fin 128 → EReal) (wF wH : Fin 64 → Fin 96 → EReal) (b1a : Fin 96 → EReal)
    (w1b : Fin 96 → Fin 64 → EReal) (b1b : Fin 64 → EReal) (wS : Fin 128 → Fin 64 → EReal) (b2a : Fin 64 → EReal)
    (w2b : Fin 64 → Fin 64 → EReal) (b2b : Fin 64 → EReal) : Fin 128 → EReal :=
  Fin.append (head (dense2 nf nh wF wH b1a) w1b b1b)
    (head (dense (fun l => ∑ d', mbr d' l) wS b2a) w2b b2b)

/-- The sum of the squares of a vector's entries. -/
def sumsq (r : Fin 128 → EReal) : EReal := ∑ c, r c * r c

/-- The plain arrangement's row: r / √(Σ r²). -/
def refRow (nf nh : Fin 64 → EReal) (mb : Fin 16 → Fin 64 → EReal) (w1a : Fin 128 → Fin 96 → EReal) (b1a : Fin 96 → EReal)
    (w1b : Fin 96 → Fin 64 → EReal) (b1b : Fin 64 → EReal) (w2a : Fin 64 → Fin 64 → EReal) (b2a : Fin 64 → EReal)
    (w2b : Fin 64 → Fin 64 → EReal) (b2b : Fin 64 → EReal) (c : Fin 128) : EReal :=
  Ideal.div (refVec nf nh mb w1a b1a w1b b1b w2a b2a w2b b2b c)
    (Ideal.sqrt (sumsq (refVec nf nh mb w1a b1a w1b b1b w2a b2a w2b b2b)))

/-- The re-laid arrangement's row: r · (Σ r²)^(-1/2). -/
def kerRow (nf nh : Fin 64 → EReal) (mbr : Fin 8 → Fin 128 → EReal) (wF wH : Fin 64 → Fin 96 → EReal) (b1a : Fin 96 → EReal)
    (w1b : Fin 96 → Fin 64 → EReal) (b1b : Fin 64 → EReal) (wS : Fin 128 → Fin 64 → EReal) (b2a : Fin 64 → EReal)
    (w2b : Fin 64 → Fin 64 → EReal) (b2b : Fin 64 → EReal) (c : Fin 128) : EReal :=
  kerVec nf nh mbr wF wH b1a w1b b1b wS b2a w2b b2b c
    * Ideal.rsqrt (sumsq (kerVec nf nh mbr wF wH b1a w1b b1b wS b2a w2b b2b))

/-! ## The joined first layer is the sum of its two halves -/

theorem dense2_halves (nf nh : Fin 64 → EReal) (w : Fin 128 → Fin 96 → EReal) (β : Fin 96 → EReal) (k : Fin 96) :
    dense2 nf nh (fun j k => w (Fin.castAdd 64 j) k) (fun j k => w (Fin.natAdd 64 j) k) β k
      = dense (Fin.append nf nh : Fin 128 → EReal) w β k := by
  unfold dense2 dense
  congr 1
  rw [show (∑ j : Fin 128, (Fin.append nf nh : Fin 128 → EReal) j * w j k)
      = ∑ j : Fin (64 + 64), Fin.append nf nh j * w j k from rfl, Fin.sum_univ_add]
  simp only [Fin.append_left, Fin.append_right]

/-! ## The 8 × 128 reading of the mailbox against the stacked weights -/

/-- A sum over 16 messages is the sum over the 8 even ones plus the sum over the 8 odd ones. -/
theorem sum_even_odd {M : Type} [AddCommMonoid M] (g : Fin 16 → M) :
    ∑ d : Fin 16, g d = (∑ d' : Fin 8, g ⟨2 * d'.val + 0, by have := d'.isLt; omega⟩)
      + ∑ d' : Fin 8, g ⟨2 * d'.val + 1, by have := d'.isLt; omega⟩ := by
  rw [← Finset.sum_add_distrib, ← Equiv.sum_comp (finProdFinEquiv : Fin 8 × Fin 2 ≃ Fin 16) g, Fintype.sum_prod_type]
  refine Finset.sum_congr rfl fun d' _ => ?_
  rw [Fin.sum_univ_two]
  congr 1 <;> (congr 1; apply Fin.ext; rw [finProdFinEquiv_apply_val]; simp; try omega)

theorem entry_castAdd (e : Fin 64) : entry (Fin.castAdd 64 e) = e :=
  Fin.ext (by show (e.val) % 64 = e.val; exact Nat.mod_eq_of_lt e.isLt)

theorem entry_natAdd (e : Fin 64) : entry (Fin.natAdd 64 e) = e :=
  Fin.ext (by show (64 + e.val) % 64 = e.val; have := e.isLt; omega)

theorem message_castAdd (d' : Fin 8) (e : Fin 64) :
    message d' (Fin.castAdd 64 e) = ⟨2 * d'.val + 0, by have := d'.isLt; omega⟩ :=
  Fin.ext (by show 2 * d'.val + e.val / 64 = 2 * d'.val + 0; have := e.isLt; omega)

theorem message_natAdd (d' : Fin 8) (e : Fin 64) :
    message d' (Fin.natAdd 64 e) = ⟨2 * d'.val + 1, by have := d'.isLt; omega⟩ :=
  Fin.ext (by show 2 * d'.val + (64 + e.val) / 64 = 2 * d'.val + 1; have := e.isLt; omega)

/-- Over the reals: the 128-lane contraction of the row sums of the 8 × 128 reading against the stacked weights is the
    64-entry contraction of the 16-message sums against the weights. -/
theorem lanes_real (M : Fin 16 → Fin 64 → ℝ) (W : Fin 64 → ℝ) :
    ∑ l : Fin 128, (∑ d' : Fin 8, M (message d' l) (entry l)) * W (entry l)
      = ∑ e : Fin 64, (∑ d : Fin 16, M d e) * W e := by
  rw [show (∑ l : Fin 128, (∑ d' : Fin 8, M (message d' l) (entry l)) * W (entry l))
      = ∑ l : Fin (64 + 64), (∑ d' : Fin 8, M (message d' l) (entry l)) * W (entry l) from rfl,
    Fin.sum_univ_add, ← Finset.sum_add_distrib]
  refine Finset.sum_congr rfl fun e _ => ?_
  simp only [entry_castAdd, entry_natAdd, message_castAdd, message_natAdd]
  rw [← add_mul, sum_even_odd (fun d => M d e)]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same on the extended reals, for a finite mailbox and finite weights. -/
theorem lanes_ereal (mb : Fin 16 → Fin 64 → EReal) (w : Fin 64 → EReal)
    (hmb : ∀ d e, ∃ r : ℝ, mb d e = r) (hw : ∀ e, ∃ r : ℝ, w e = r) :
    ∑ l : Fin 128, (∑ d' : Fin 8, mb (message d' l) (entry l)) * w (entry l)
      = ∑ e : Fin 64, (∑ d : Fin 16, mb d e) * w e := by
  choose M hM using hmb
  choose W hW using hw
  simp only [hM, hW, ← coe_sum, ← EReal.coe_mul]
  exact congrArg _ (lanes_real M W)

/-! ## The two vectors agree, and so do the two rows when the sum of squares is positive -/

theorem kerVec_eq_refVec (nf nh : Fin 64 → EReal) (mb : Fin 16 → Fin 64 → EReal) (w1a : Fin 128 → Fin 96 → EReal)
    (b1a : Fin 96 → EReal) (w1b : Fin 96 → Fin 64 → EReal) (b1b : Fin 64 → EReal) (w2a : Fin 64 → Fin 64 → EReal)
    (b2a : Fin 64 → EReal) (w2b : Fin 64 → Fin 64 → EReal) (b2b : Fin 64 → EReal)
    (hmb : ∀ d e, ∃ r : ℝ, mb d e = r) (hw : ∀ e k, ∃ r : ℝ, w2a e k = r) :
    kerVec nf nh (fun d' l => mb (message d' l) (entry l)) (fun j k => w1a (Fin.castAdd 64 j) k)
        (fun j k => w1a (Fin.natAdd 64 j) k) b1a w1b b1b (fun l k => w2a (entry l) k) b2a w2b b2b
      = refVec nf nh mb w1a b1a w1b b1b w2a b2a w2b b2b := by
  unfold kerVec refVec
  have h1 : dense2 nf nh (fun j k => w1a (Fin.castAdd 64 j) k) (fun j k => w1a (Fin.natAdd 64 j) k) b1a
      = dense (Fin.append nf nh : Fin 128 → EReal) w1a b1a := funext fun k => dense2_halves nf nh w1a b1a k
  have h2 : dense (fun l => ∑ d', mb (message d' l) (entry l)) (fun l k => w2a (entry l) k) b2a
      = dense (fun e => ∑ d, mb d e) w2a b2a := funext fun k => by
    unfold dense
    exact congrArg (· + b2a k) (lanes_ereal mb (fun e => w2a e k) hmb (fun e => hw e k))
  rw [h1, h2]

/-- A product with the reciprocal square root is the quotient by the square root, for a positive argument. -/
theorem mul_rsqrt_eq_div_sqrt (x s : EReal) (hs : 0 < s) : x * Ideal.rsqrt s = Ideal.div x (Ideal.sqrt s) := by
  induction s using EReal.rec with
  | bot => exact absurd hs (by simp)
  | top => simp [Ideal.div]
  | coe r =>
    have hr : 0 < r := by exact_mod_cast hs
    rw [Ideal.rsqrt_coe, Ideal.sqrt_coe, if_neg (not_lt.2 hr.le), if_neg hr.ne', if_neg (not_lt.2 hr.le),
      Ideal.div_coe (Real.sqrt_ne_zero'.2 hr), one_div]

theorem kerRow_eq_refRow (nf nh : Fin 64 → EReal) (mb : Fin 16 → Fin 64 → EReal) (w1a : Fin 128 → Fin 96 → EReal)
    (b1a : Fin 96 → EReal) (w1b : Fin 96 → Fin 64 → EReal) (b1b : Fin 64 → EReal) (w2a : Fin 64 → Fin 64 → EReal)
    (b2a : Fin 64 → EReal) (w2b : Fin 64 → Fin 64 → EReal) (b2b : Fin 64 → EReal)
    (hmb : ∀ d e, ∃ r : ℝ, mb d e = r) (hw : ∀ e k, ∃ r : ℝ, w2a e k = r)
    (hs : 0 < sumsq (refVec nf nh mb w1a b1a w1b b1b w2a b2a w2b b2b)) (c : Fin 128) :
    kerRow nf nh (fun d' l => mb (message d' l) (entry l)) (fun j k => w1a (Fin.castAdd 64 j) k)
        (fun j k => w1a (Fin.natAdd 64 j) k) b1a w1b b1b (fun l k => w2a (entry l) k) b2a w2b b2b c
      = refRow nf nh mb w1a b1a w1b b1b w2a b2a w2b b2b c := by
  unfold kerRow refRow
  rw [kerVec_eq_refVec nf nh mb w1a b1a w1b b1b w2a b2a w2b b2b hmb hw]
  exact mul_rsqrt_eq_div_sqrt _ _ hs

end Cert.NodeNet

end
-- ==== Proof.LibMiddleAxis.lean ====
/-
  The middle axis of a rank-3 array.

  Two readings at an index given by coordinates. (1) Summing an [a, b, c] array over its middle axis leaves an [a, c]
  matrix whose entry (i, l) is the sum over the b middle coordinates d of the entries (i, d, l). (2) Regrouping the two
  inner axes of an [a, b₂, c] array as [a, b, c₂] (with b₂ · c = b · c₂) keeps every entry at its row-major position: inside
  row n, the entry at inner position d · c + e of the source is the entry at inner position d' · c₂ + l of the result.
-/
import Idealize.ShloMosaic.PureOps.Ideal.Laws
import Idealize.ShloMosaic.Lib.ValueIdx
import Idealize.ShloMosaic.Lib.Pipeline.Value

open scoped BigOperators

namespace Idealize.ShloMosaic.ValueIdx

open Idealize.ShloMosaic

/-- Inserting coordinate `k` on axis 1 over the matrix index `(i, l)` gives the rank-3 index `(i, k, l)`. -/
theorem reduces_middle_lift {a b c : ℕ} (h : (⟨3, ![a, b, c]⟩ : Shape).Reduces [1] ⟨2, ![a, c]⟩) (i : Fin a) (l : Fin c)
    (k : Fin b) : h.lift (ix2 i l) k = ix3 i k l := by
  funext ax; apply Fin.ext
  show h.liftVal (ix2 i l) k.val ax = (ix3 i k l ax).val
  unfold Shape.Reduces.liftVal
  match ax with
  | ⟨0, _⟩ => rfl
  | ⟨1, _⟩ => rfl
  | ⟨2, _⟩ => rfl

/-- The sum of an `[a, b, c]` array over axis 1, at the exact extended reals, read at `(i, l)`: `∑ d, src (i, d, l)`. -/
theorem multiReduction_add_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ d : Fin b, src (ix3 i d l) := by
  refine (Ideal.multiReduction_add_single src acc h hφ hacc (ix2 i l)).trans ?_
  exact Finset.sum_congr rfl fun d _ => congrArg src (reduces_middle_lift h i l d)

variable {α : Type}

/-- An `[a, b₂, c]` array regrouped as `[a, b, c₂]` reads, at `(n, d', l)`, the operand at `(n, d, e)` whenever the two
    inner positions agree, `d · c + e = d' · c₂ + l`. -/
theorem shapeCast_regroup_inner_apply {a b₂ c b c₂ : ℕ} (x : (⟨3, ![a, b₂, c]⟩ : Shape).Idx → α)
    (h : (⟨3, ![a, b₂, c]⟩ : Shape).ShapeCasts ⟨3, ![a, b, c₂]⟩) (hbc : b₂ * c = b * c₂)
    (n : Fin a) (d : Fin b₂) (e : Fin c) (d' : Fin b) (l : Fin c₂) (hk : d.val * c + e.val = d'.val * c₂ + l.val) :
    shapeCast ⟨3, ![a, b, c₂]⟩ x h (ix3 n d' l) = x (ix3 n d e) :=
  shapeCast_apply x h _ _ (by
    rw [Shape.rowMajor_val_three, Shape.rowMajor_val_three]
    show (n.val * b₂ + d.val) * c + e.val = (n.val * b + d'.val) * c₂ + l.val
    have e1 : (n.val * b₂ + d.val) * c + e.val = n.val * (b₂ * c) + (d.val * c + e.val) := by ring
    rw [e1, hbc, hk]; ring)

end Idealize.ShloMosaic.ValueIdx
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibConcatHalves.lean ====
/-
  Two blocks of 64 columns side by side, read along a row.

  Joining an [a, 64] matrix X and an [a, 64] matrix Y along the columns gives an [a, 128] matrix whose row p is the 64
  entries of X's row p followed by the 64 entries of Y's row p: as a function of the column, the two rows appended.
-/
import proofs.«112432_j49349174231511_2_alg».proof.Proof.LibConcatRead

namespace Idealize.ShloMosaic.ValueIdx

open Idealize.ShloMosaic

/-- Row `p` of `[X | Y]` is `Fin.append` of row `p` of `X` and row `p` of `Y`. -/
theorem concat_row {α : Type} {a : ℕ} (X Y : (⟨2, ![a, 64]⟩ : Shape).Idx → α)
    (h : Shape.Concatenates [⟨2, ![a, 64]⟩, ⟨2, ![a, 64]⟩] ⟨2, ![a, 128]⟩ 1) (p : Fin a) (c : Fin 128) :
    concatenate ⟨2, ![a, 128]⟩ 1 [⟨⟨2, ![a, 64]⟩, X⟩, ⟨⟨2, ![a, 64]⟩, Y⟩] h (ix2 p c)
      = (Fin.append (fun q => X (ix2 p q)) (fun q => Y (ix2 p q)) : Fin 128 → α) c := by
  have key : ∀ c : Fin (64 + 64), concatenate ⟨2, ![a, 128]⟩ 1 [⟨⟨2, ![a, 64]⟩, X⟩, ⟨⟨2, ![a, 64]⟩, Y⟩] h (ix2 p c)
      = Fin.append (fun q => X (ix2 p q)) (fun q => Y (ix2 p q)) c := fun c =>
    Fin.addCases (fun q => by rw [Fin.append_left]; exact concat_cols_left X Y h p q _ rfl)
      (fun q => by rw [Fin.append_right]; exact concat_cols_right X Y h p q _ rfl) c
  exact key c

end Idealize.ShloMosaic.ValueIdx
-- ==== Proof.KernelRow.lean ====
/-
  What the kernel body stores for one block of 2000 nodes, read at an entry.

  The body's stored value at (p, c) — row p of the block, output lane c — is the re-laid row of the network
  (RowMath) of the block's row p: the features and hidden values at row p, the 8 × 128 reading of the mailbox at row p,
  the two halves of the first weight matrix, the stacked second weight matrix, and the biases read at their one row.
  Each matrix product into a zero accumulator is a plain sum of products; each sum along an axis is a plain sum;
  changes of float format are the identity on the extended reals.
-/
import proofs.«112432_j49349174231511_2_alg».proof.Proof.Gen.KernelIdeal.Skeleton
import proofs.«112432_j49349174231511_2_alg».proof.Proof.RowMath
import proofs.«112432_j49349174231511_2_alg».proof.Proof.LibMiddleAxis
import proofs.«112432_j49349174231511_2_alg».proof.Proof.LibPlainMatmul
import proofs.«112432_j49349174231511_2_alg».proof.Proof.LibLaneSum
import proofs.«112432_j49349174231511_2_alg».proof.Proof.LibColumnCast
import proofs.«112432_j49349174231511_2_alg».proof.Proof.LibColumnBroadcast
import proofs.«112432_j49349174231511_2_alg».proof.Proof.LibConcatHalves
import Idealize.ShloMosaic.Lib.ValueLayout
import Idealize.ShloMosaic.Lib.ValueIdx
import Idealize.ShloMosaic.Lib.Pipeline.Value
import Idealize.ShloMosaic.PureOps.Ideal.Laws

open scoped BigOperators

noncomputable section

namespace Cert.KernelIdeal.RowValue

open Cert.KernelIdeal Cert.KernelIdeal.Gen Idealize.ShloMosaic Idealize.ShloMosaic.ValueIdx Cert.NodeNet

/-! ## The pointwise and non-pointwise operations of the body at an entry -/

theorem tanh_at {s : Shape} (v : FVec Ideal s .f32) (i : s.Idx) : tanh v i = Ideal.tanh (v i) := rfl

theorem rsqrt_at {s : Shape} (v : FVec Ideal s .f32) (i : s.Idx) : rsqrt v i = Ideal.rsqrt (v i) := rfl

/-- The four products of the body, each into a zero accumulator, as sums of products. -/
theorem mm_64_96 (A : FVec Ideal S2000x64 .bf16) (B : FVec Ideal S64x96 .bf16) (p : Fin 2000) (k : Fin 96) :
    matmul dot_S2000x64_S64x96_S2000x96_1_0_0_1_n_n none A B (constant (F := Ideal) S2000x96 .f32 0x00000000#32) (ix2 p k)
      = ∑ j : Fin 64, A (ix2 p j) * B (ix2 j k) :=
  matmul_plain_zero_apply dot_S2000x64_S64x96_S2000x96_1_0_0_1_n_n.wf none A B p k

theorem mm_96_64 (A : FVec Ideal S2000x96 .bf16) (B : FVec Ideal S96x64 .bf16) (p : Fin 2000) (q : Fin 64) :
    matmul dot_S2000x96_S96x64_S2000x64_1_0_0_1_n_n none A B (constant (F := Ideal) S2000x64 .f32 0x00000000#32) (ix2 p q)
      = ∑ k : Fin 96, A (ix2 p k) * B (ix2 k q) :=
  matmul_plain_zero_apply dot_S2000x96_S96x64_S2000x64_1_0_0_1_n_n.wf none A B p q

theorem mm_128_64 (A : FVec Ideal S2000x128 .bf16) (B : FVec Ideal S128x64 .bf16) (p : Fin 2000) (k : Fin 64) :
    matmul dot_S2000x128_S128x64_S2000x64_1_0_0_1_n_n none A B (constant (F := Ideal) S2000x64 .f32 0x00000000#32) (ix2 p k)
      = ∑ l : Fin 128, A (ix2 p l) * B (ix2 l k) :=
  matmul_plain_zero_apply dot_S2000x128_S128x64_S2000x64_1_0_0_1_n_n.wf none A B p k

theorem mm_64_64 (A : FVec Ideal S2000x64 .bf16) (B : FVec Ideal S64x64 .bf16) (p : Fin 2000) (q : Fin 64) :
    matmul dot_S2000x64_S64x64_S2000x64_1_0_0_1_n_n none A B (constant (F := Ideal) S2000x64 .f32 0x00000000#32) (ix2 p q)
      = ∑ k : Fin 64, A (ix2 p k) * B (ix2 k q) :=
  matmul_plain_zero_apply dot_S2000x64_S64x64_S2000x64_1_0_0_1_n_n.wf none A B p q

/-- A bias row laid over the 2000 rows of the block. -/
theorem bias_96 (β : FVec Ideal S1x96 .f32) (p : Fin 2000) (k : Fin 96) :
    broadcastTo S2000x96 (shapeCast S1x96 β shapeCasts_S1x96_S1x96) broadcasts_S1x96_S2000x96 (ix2 p k) = β (ix2 (0 : Fin 1) k) := by
  rw [shapeCast_self]
  exact broadcastTo_1b_ab_apply β broadcasts_S1x96_S2000x96 p k

theorem bias_64 (β : FVec Ideal S1x64 .f32) (p : Fin 2000) (q : Fin 64) :
    broadcastTo S2000x64 (shapeCast S1x64 β shapeCasts_S1x64_S1x64) broadcasts_S1x64_S2000x64 (ix2 p q) = β (ix2 (0 : Fin 1) q) := by
  rw [shapeCast_self]
  exact broadcastTo_1b_ab_apply β broadcasts_S1x64_S2000x64 p q

/-! ## The first network's 64 outputs -/

theorem pay2_apply (v0 v2 : Vec Ideal S2000x64 .f32) (v4 v7 : Vec Ideal S64x96 .f32) (v13 : Vec Ideal S1x96 .f32)
    (v20 : Vec Ideal S96x64 .f32) (v23 : Vec Ideal S1x64 .f32) (p : Fin 2000) (q : Fin 64) :
    k0_pay2 (F := Ideal) v0 v2 v4 v7 v13 v20 v23 (ix2 p q)
      = head (dense2 (fun j => v0 (ix2 p j)) (fun j => v2 (ix2 p j)) (fun j k => v4 (ix2 j k)) (fun j k => v7 (ix2 j k))
          (fun k => v13 (ix2 (0 : Fin 1) k))) (fun k q => v20 (ix2 k q)) (fun q => v23 (ix2 (0 : Fin 1) q)) q := by
  unfold k0_pay2 head dense dense2
  simp only [tanh_at, addf_apply, mm_96_64, truncf_apply, maximumf_apply, mm_64_96, broadcastTo_1b_ab_apply, shapeCast_self,
    broadcast_apply, Ideal.ofBits_def, Ideal.ofBits_zero_f32]

/-! ## The row sums of the 8 × 128 reading of the mailbox, and the stacked weights -/

theorem pay3_apply (v28 : Vec Ideal S2000x8x128 .f32) (p : Fin 2000) (l : Fin 128) :
    k0_pay3 (F := Ideal) v28 (ix2 p l) = ∑ d : Fin 8, v28 (ix3 p d l) := by
  unfold k0_pay3
  simp only [truncf_apply, shapeCast_self]
  exact multiReduction_add_middle_apply v28 _ _ _ _ p l

theorem pay4_apply (v32 : Vec Ideal S128x64 .f32) (l : Fin 128) (k : Fin 64) :
    k0_pay4 (F := Ideal) v32 (ix2 l k) = v32 (ix2 l k) := by
  unfold k0_pay4
  simp only [truncf_apply, shapeCast_self]

/-! ## The stored value: both networks' outputs joined and scaled by the reciprocal root of their sum of squares -/

theorem pay1_apply (v27 : FVec Ideal S2000x64 .f32) (v31 : FVec Ideal S2000x128 .bf16) (v34 : FVec Ideal S128x64 .bf16)
    (v36 : Vec Ideal S1x64 .f32) (v43 : Vec Ideal S64x64 .f32) (v46 : Vec Ideal S1x64 .f32) (p : Fin 2000) (c : Fin 128) :
    k0_pay1 (F := Ideal) v27 v31 v34 v36 v43 v46 (ix2 p c)
      = (Fin.append (fun q => v27 (ix2 p q))
            (head (dense (fun l => v31 (ix2 p l)) (fun l k => v34 (ix2 l k)) (fun k => v36 (ix2 (0 : Fin 1) k)))
              (fun k q => v43 (ix2 k q)) (fun q => v46 (ix2 (0 : Fin 1) q))) : Fin 128 → EReal) c
        * Ideal.rsqrt (sumsq (Fin.append (fun q => v27 (ix2 p q))
            (head (dense (fun l => v31 (ix2 p l)) (fun l k => v34 (ix2 l k)) (fun k => v36 (ix2 (0 : Fin 1) k)))
              (fun k q => v43 (ix2 k q)) (fun q => v46 (ix2 (0 : Fin 1) q))))) := by
  unfold k0_pay1 head dense sumsq
  simp only [mulf_apply, broadcastTo_a1_ab_apply, rsqrt_at, shapeCast_a_a1_apply, concat_row,
    tanh_at, addf_apply, mm_64_64, truncf_apply, maximumf_apply, mm_128_64, broadcastTo_1b_ab_apply, shapeCast_self,
    broadcast_apply, Ideal.ofBits_def, Ideal.ofBits_zero_f32]
  congr 1
  congr 1
  refine (multiReduction_add_rows_apply _ _ _ _ _ p).trans ?_
  simp only [mulf_apply, concat_row, tanh_at, addf_apply, mm_64_64, truncf_apply, maximumf_apply, mm_128_64,
    broadcastTo_1b_ab_apply, shapeCast_self, broadcast_apply, Ideal.ofBits_def, Ideal.ofBits_zero_f32]

/-- The whole stored value at (p, c): the re-laid row of the block's row p. -/
theorem stored_apply (x0 x1 : Vec Ideal S2000x64 .f32) (x2 : Vec Ideal S2000x8x128 .f32) (x3 x4 : Vec Ideal S64x96 .f32)
    (x5 : Vec Ideal S1x96 .f32) (x6 : Vec Ideal S96x64 .f32) (x7 : Vec Ideal S1x64 .f32) (x8 : Vec Ideal S128x64 .f32)
    (x9 : Vec Ideal S1x64 .f32) (x10 : Vec Ideal S64x64 .f32) (x11 : Vec Ideal S1x64 .f32) (p : Fin 2000) (c : Fin 128) :
    k0_pay1 (F := Ideal) (k0_pay2 x0 x1 x3 x4 x5 x6 x7) (k0_pay3 x2) (k0_pay4 x8) x9 x10 x11 (ix2 p c)
      = kerRow (fun j => x0 (ix2 p j)) (fun j => x1 (ix2 p j)) (fun d l => x2 (ix3 p d l)) (fun j k => x3 (ix2 j k))
          (fun j k => x4 (ix2 j k)) (fun k => x5 (ix2 (0 : Fin 1) k)) (fun k q => x6 (ix2 k q)) (fun q => x7 (ix2 (0 : Fin 1) q))
          (fun l k => x8 (ix2 l k)) (fun k => x9 (ix2 (0 : Fin 1) k)) (fun k q => x10 (ix2 k q))
          (fun q => x11 (ix2 (0 : Fin 1) q)) c := by
  rw [pay1_apply]
  simp only [pay2_apply, pay3_apply, pay4_apply]
  rfl

end Cert.KernelIdeal.RowValue

end
-- ==== Proof.ArraySpec.lean ====
/-
  The whole output array as one function of the eleven argument arrays.

  Row n of the 200000 × 128 output is the re-laid row of the network (RowMath) of node n: its 64 features and 64 hidden
  values, the 8 × 128 reading of its 16 × 64 mailbox (message 2d' + l / 64, entry l mod 64 at row d', lane l), the upper
  and lower 64 rows of the first weight matrix, the second weight matrix stacked twice (row l reads row l mod 64), and
  the four bias vectors.
-/
import proofs.«112432_j49349174231511_2_alg».proof.Proof.RowMath
import Idealize.ShloMosaic.Lib.ValueIdx

noncomputable section

namespace Cert.NodeNet

open Idealize.ShloMosaic Idealize.ShloMosaic.ValueIdx

/-- Entry (n, c) of the output array, from the argument arrays. -/
def outEntry (a0 a1 : (⟨2, ![200000, 64]⟩ : Shape).Idx → EReal) (a2 : (⟨3, ![200000, 16, 64]⟩ : Shape).Idx → EReal)
    (a3 : (⟨2, ![128, 96]⟩ : Shape).Idx → EReal) (a4 : (⟨1, ![96]⟩ : Shape).Idx → EReal)
    (a5 : (⟨2, ![96, 64]⟩ : Shape).Idx → EReal) (a6 : (⟨1, ![64]⟩ : Shape).Idx → EReal)
    (a7 : (⟨2, ![64, 64]⟩ : Shape).Idx → EReal) (a8 : (⟨1, ![64]⟩ : Shape).Idx → EReal)
    (a9 : (⟨2, ![64, 64]⟩ : Shape).Idx → EReal) (a10 : (⟨1, ![64]⟩ : Shape).Idx → EReal)
    (n : Fin 200000) (c : Fin 128) : EReal :=
  kerRow (fun j => a0 (ix2 n j)) (fun j => a1 (ix2 n j)) (fun d' l => a2 (ix3 n (message d' l) (entry l)))
    (fun j k => a3 (ix2 (Fin.castAdd 64 j : Fin 128) k)) (fun j k => a3 (ix2 (Fin.natAdd 64 j : Fin 128) k)) (fun k => a4 (ix1 k))
    (fun k q => a5 (ix2 k q)) (fun q => a6 (ix1 q)) (fun l k => a7 (ix2 (entry l) k)) (fun k => a8 (ix1 k))
    (fun k q => a9 (ix2 k q)) (fun q => a10 (ix1 q)) c

/-- The output array. -/
def outArray (a0 a1 : (⟨2, ![200000, 64]⟩ : Shape).Idx → EReal) (a2 : (⟨3, ![200000, 16, 64]⟩ : Shape).Idx → EReal)
    (a3 : (⟨2, ![128, 96]⟩ : Shape).Idx → EReal) (a4 : (⟨1, ![96]⟩ : Shape).Idx → EReal)
    (a5 : (⟨2, ![96, 64]⟩ : Shape).Idx → EReal) (a6 : (⟨1, ![64]⟩ : Shape).Idx → EReal)
    (a7 : (⟨2, ![64, 64]⟩ : Shape).Idx → EReal) (a8 : (⟨1, ![64]⟩ : Shape).Idx → EReal)
    (a9 : (⟨2, ![64, 64]⟩ : Shape).Idx → EReal) (a10 : (⟨1, ![64]⟩ : Shape).Idx → EReal) :
    (⟨2, ![200000, 128]⟩ : Shape).Idx → EReal :=
  fun i => outEntry a0 a1 a2 a3 a4 a5 a6 a7 a8 a9 a10 (i 0) (i 1)

theorem outArray_apply (a0 a1 : (⟨2, ![200000, 64]⟩ : Shape).Idx → EReal) (a2 : (⟨3, ![200000, 16, 64]⟩ : Shape).Idx → EReal)
    (a3 : (⟨2, ![128, 96]⟩ : Shape).Idx → EReal) (a4 : (⟨1, ![96]⟩ : Shape).Idx → EReal)
    (a5 : (⟨2, ![96, 64]⟩ : Shape).Idx → EReal) (a6 : (⟨1, ![64]⟩ : Shape).Idx → EReal)
    (a7 : (⟨2, ![64, 64]⟩ : Shape).Idx → EReal) (a8 : (⟨1, ![64]⟩ : Shape).Idx → EReal)
    (a9 : (⟨2, ![64, 64]⟩ : Shape).Idx → EReal) (a10 : (⟨1, ![64]⟩ : Shape).Idx → EReal) (n : Fin 200000) (c : Fin 128) :
    outArray a0 a1 a2 a3 a4 a5 a6 a7 a8 a9 a10 (ix2 n c) = outEntry a0 a1 a2 a3 a4 a5 a6 a7 a8 a9 a10 n c := rfl

end Cert.NodeNet

end
-- ==== Proof.KernelArray.lean ====
/-
  The kernel's output array after the run, as one function of the argument arrays.

  The grid has 100 points; point t works on rows 2000 t … 2000 t + 1999. The three row-major operands (features, hidden
  values, the 8 × 128 reading of the mailbox) are read through blocks that move with t; the weights and biases are read
  whole at every point. Before the call the host re-lays some arguments: the mailbox [200000, 16, 64] is regrouped as
  [200000, 8, 128]; the first weight matrix is cut into its upper and lower 64 rows; the second weight matrix is stacked on
  itself; each bias vector [n] becomes a one-row matrix [1, n]. Reading every block where the output block's rectangle says,
  what point t writes back is block t of the output array of ArraySpec; the 100 blocks cover the array.
-/
import proofs.«112432_j49349174231511_2_alg».proof.Proof.Gen.KernelIdeal.Value
import proofs.«112432_j49349174231511_2_alg».proof.Proof.KernelRow
import proofs.«112432_j49349174231511_2_alg».proof.Proof.ArraySpec
import proofs.«112432_j49349174231511_2_alg».proof.Proof.LibMiddleAxis
import proofs.«112432_j49349174231511_2_alg».proof.Proof.LibConcatRead
import Idealize.ShloMosaic.Lib.StableHlo.Run
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeNet
open Idealize.ShloMosaic.Pipeline (Dat)

variable (m : (ℓ : Loc nD τ sig) → Buf (Elt Ideal) ℓ) (ρ : Dev nD → PrngReg)

/-! ## The arrays the host prepares before the call -/

theorem V_v0 (c : Dev nD) : (V m c main_v0 : S200000x8x128.Idx → EReal)
    = shapeCast S200000x8x128 (m ((c : Thread nD τ).loc main_arg2)) shapeCasts_S200000x16x64_S200000x8x128 := by
  dsimp only [Gen.V, Gen.hostOps0]; (after_results <;> rfl)

theorem V_v1 (c : Dev nD) : (V m c main_v1 : S64x96.Idx → EReal)
    = extractStridedSlice S64x96 ![0, 0] (m ((c : Thread nD τ).loc main_arg3)) slices_S128x96_S64x96_0_0 := by
  dsimp only [Gen.V, Gen.hostOps0]; (after_results <;> rfl)

theorem V_v2 (c : Dev nD) : (V m c main_v2 : S64x96.Idx → EReal)
    = extractStridedSlice S64x96 ![64, 0] (m ((c : Thread nD τ).loc main_arg3)) slices_S128x96_S64x96_64_0 := by
  dsimp only [Gen.V, Gen.hostOps0]; (after_results <;> rfl)

theorem V_v3 (c : Dev nD) : (V m c main_v3 : S128x64.Idx → EReal)
    = concatenate S128x64 0 [⟨S64x64, (m ((c : Thread nD τ).loc main_arg7))⟩, ⟨S64x64, (m ((c : Thread nD τ).loc main_arg7))⟩] concatenates_S64x64_S64x64_S128x64_d0 := by
  dsimp only [Gen.V, Gen.hostOps0]; (after_results <;> rfl)

theorem V_v4 (c : Dev nD) : (V m c main_v4 : S1x96.Idx → EReal) = shapeCast S1x96 (m ((c : Thread nD τ).loc main_arg4)) shapeCasts_S96_S1x96 := by
  dsimp only [Gen.V, Gen.hostOps0]; (after_results <;> rfl)

theorem V_v5 (c : Dev nD) : (V m c main_v5 : S1x64.Idx → EReal) = shapeCast S1x64 (m ((c : Thread nD τ).loc main_arg6)) shapeCasts_S64_S1x64 := by
  dsimp only [Gen.V, Gen.hostOps0]; (after_results <;> rfl)

theorem V_v6 (c : Dev nD) : (V m c main_v6 : S1x64.Idx → EReal) = shapeCast S1x64 (m ((c : Thread nD τ).loc main_arg8)) shapeCasts_S64_S1x64 := by
  dsimp only [Gen.V, Gen.hostOps0]; (after_results <;> rfl)

theorem V_v7 (c : Dev nD) : (V m c main_v7 : S1x64.Idx → EReal) = shapeCast S1x64 (m ((c : Thread nD τ).loc main_arg10)) shapeCasts_S64_S1x64 := by
  dsimp only [Gen.V, Gen.hostOps0]; (after_results <;> rfl)

/-! ## Where each window's block sits at point t -/

/-- The printed index maps, decided over the grid: the three row-major inputs and the output are at row block t, column
    block 0; every other window is at block 0 on both axes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val ∧ win0_12.index t (1 : Fin 2) = 0 :=
  (by decide +kernel : ∀ t : Fin grid0.N, _)

/-- Row p of point t's block is row 2000 t + p of the array. -/
def row (t : Fin cfg0.N) (p : Fin 2000) : Fin 200000 :=
  ⟨2000 * t.val + p.val, by have h : t.val < 100 := lt_of_lt_of_eq t.isLt N_0; have := p.isLt; omega⟩

/-! ## Each window's block at point t, read at an entry, from the argument arrays -/

theorem blk0 (c : Dev nD) (t : Fin cfg0.N) (p : Fin 2000) (j : Fin 64) :
    iblk m c 0 t (ix2 p j) = (m ((c : Thread nD τ).loc main_arg0)) (ix2 (row t p) j) := by
  obtain ⟨e0, e1, -⟩ := idx_facts t
  show V m c main_arg0 (((cfg0.win 0).blk t).view.emb (ix2 p j)) = _
  rw [V_main_arg0]
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 64 + 1 * j.val = j.val; omega

theorem blk1 (c : Dev nD) (t : Fin cfg0.N) (p : Fin 2000) (j : Fin 64) :
    iblk m c 1 t (ix2 p j) = (m ((c : Thread nD τ).loc main_arg1)) (ix2 (row t p) j) := by
  obtain ⟨-, -, e0, e1, -⟩ := idx_facts t
  show V m c main_arg1 (((cfg0.win 1).blk t).view.emb (ix2 p j)) = _
  rw [V_main_arg1]
  refine congrArg _ (funext fun a => Fin.ext ?_)
  match a with
  | ⟨0, _⟩ => show win0_1.index t (0 : Fin 2) * 2000 + 1 * p.val = 2000 * t.val + p.val; omega
  | ⟨1, _⟩ => show win0_1.index t (1 : Fin 2) * 64 + 1 * j.val = j.val; omega

/-- The mailbox block in its 8 × 128 reading: row d', lane l holds message 2d' + l / 64, entry l mod 64. -/
theorem blk2 (c : Dev nD) (t : Fin cfg0.N) (p : Fin 2000) (d' : Fin 8) (l : Fin 128) :
    iblk m c 2 t (ix3 p d' l) = (m ((c : Thread nD τ).loc main_arg2)) (ix3 (row t p) (message d' l) (entry l)) := by
  obtain ⟨-, -, -, -, e0, e1, e2, -⟩ := idx_facts t
  show V m c main_v0 (((cfg0.win 2).blk t).view.emb (ix3 p d' l)) = _
  rw [V_v0]
  have hemb : ((cfg0.win 2).blk t).view.emb (ix3 p d' l) = ix3 (row t p) d' l := by
    funext a; apply Fin.ext
    match a with
    | ⟨0, _⟩ => show win0_2.index t (0 : Fin 3) * 2000 + 1 * p.val = 2000 * t.val + p.val; omega
    | ⟨1, _⟩ => show win0_2.index t (1 : Fin 3) * 8 + 1 * d'.val = d'.val; omega
    | ⟨2, _⟩ => show win0_2.index t (2 : Fin 3) * 128 + 1 * l.val = l.val; omega
  rw [hemb]
  exact shapeCast_regroup_inner_apply _ shapeCasts_S200000x16x64_S200000x8x128 (by norm_num) (row t p) (message d' l) (entry l) d' l (by
    show (2 * d'.val + l.val / 64) * 64 + l.val % 64 = d'.val * 128 + l.val
    omega)

theorem blk3 (c : Dev nD) (t : Fin cfg0.N) (j : Fin 64) (k : Fin 96) :
    iblk m c 3 t (ix2 j k) = (m ((c : Thread nD τ).loc main_arg3)) (ix2 (Fin.castAdd 64 j : Fin 128) k) := by
  obtain ⟨-, -, -, -, -, -, -, e0, e1, -⟩ := idx_facts t
  show V m c main_v1 (((cfg0.win 3).blk t).view.emb (ix2 j k)) = _
  rw [V_v1]
  have hemb : ((cfg0.win 3).blk t).view.emb (ix2 j k) = ix2 j k := by
    funext a; apply Fin.ext
    match a with
    | ⟨0, _⟩ => show win0_3.index t (0 : Fin 2) * 64 + 1 * j.val = j.val; omega
    | ⟨1, _⟩ => show win0_3.index t (1 : Fin 2) * 96 + 1 * k.val = k.val; omega
  rw [hemb]
  exact slice2_axis0_apply 0 _ slices_S128x96_S64x96_0_0 j k _ (by show j.val = 0 + j.val; omega)

theorem blk4 (c : Dev nD) (t : Fin cfg0.N) (j : Fin 64) (k : Fin 96) :
    iblk m c 4 t (ix2 j k) = (m ((c : Thread nD τ).loc main_arg3)) (ix2 (Fin.natAdd 64 j : Fin 128) k) := by
  obtain ⟨-, -, -, -, -, -, -, -, -, e0, e1, -⟩ := idx_facts t
  show V m c main_v2 (((cfg0.win 4).blk t).view.emb (ix2 j k)) = _
  rw [V_v2]
  have hemb : ((cfg0.win 4).blk t).view.emb (ix2 j k) = ix2 j k := by
    funext a; apply Fin.ext
    match a with
    | ⟨0, _⟩ => show win0_4.index t (0 : Fin 2) * 64 + 1 * j.val = j.val; omega
    | ⟨1, _⟩ => show win0_4.index t (1 : Fin 2) * 96 + 1 * k.val = k.val; omega
  rw [hemb]
  exact slice2_axis0_apply 64 _ slices_S128x96_S64x96_64_0 j k _ (by show 64 + j.val = 64 + j.val; rfl)

theorem blk5 (c : Dev nD) (t : Fin cfg0.N) (k : Fin 96) :
    iblk m c 5 t (ix2 (0 : Fin 1) k) = (m ((c : Thread nD τ).loc main_arg4)) (ix1 k) := by
  obtain ⟨-, -, -, -, -, -, -, -, -, -, -, e0, e1, -⟩ := idx_facts t
  show V m c main_v4 (((cfg0.win 5).blk t).view.emb (ix2 (0 : Fin 1) k)) = _
  rw [V_v4]
  have hemb : ((cfg0.win 5).blk t).view.emb (ix2 (0 : Fin 1) k) = ix2 (0 : Fin 1) k := by
    funext a; apply Fin.ext
    match a with
    | ⟨0, _⟩ => show win0_5.index t (0 : Fin 2) * 1 + 1 * 0 = 0; omega
    | ⟨1, _⟩ => show win0_5.index t (1 : Fin 2) * 96 + 1 * k.val = k.val; omega
  rw [hemb]
  exact shapeCast_a_1a_apply _ shapeCasts_S96_S1x96 0 k

theorem blk6 (c : Dev nD) (t : Fin cfg0.N) (k : Fin 96) (q : Fin 64) :
    iblk m c 6 t (ix2 k q) = (m ((c : Thread nD τ).loc main_arg5)) (ix2 k q) := by
  obtain ⟨-, -, -, -, -, -, -, -, -, -, -, -, -, e0, e1, -⟩ := idx_facts t
  show V m c main_arg5 (((cfg0.win 6).blk t).view.emb (ix2 k q)) = _
  rw [V_main_arg5]
  refine congrArg _ (funext fun a => Fin.ext ?_)
  match a with
  | ⟨0, _⟩ => show win0_6.index t (0 : Fin 2) * 96 + 1 * k.val = k.val; omega
  | ⟨1, _⟩ => show win0_6.index t (1 : Fin 2) * 64 + 1 * q.val = q.val; omega

theorem blk7 (c : Dev nD) (t : Fin cfg0.N) (q : Fin 64) :
    iblk m c 7 t (ix2 (0 : Fin 1) q) = (m ((c : Thread nD τ).loc main_arg6)) (ix1 q) := by
  obtain ⟨-, -, -, -, -, -, -, -, -, -, -, -, -, -, -, e0, e1, -⟩ := idx_facts t
  show V m c main_v5 (((cfg0.win 7).blk t).view.emb (ix2 (0 : Fin 1) q)) = _
  rw [V_v5]
  have hemb : ((cfg0.win 7).blk t).view.emb (ix2 (0 : Fin 1) q) = ix2 (0 : Fin 1) q := by
    funext a; apply Fin.ext
    match a with
    | ⟨0, _⟩ => show win0_7.index t (0 : Fin 2) * 1 + 1 * 0 = 0; omega
    | ⟨1, _⟩ => show win0_7.index t (1 : Fin 2) * 64 + 1 * q.val = q.val; omega
  rw [hemb]
  exact shapeCast_a_1a_apply _ shapeCasts_S64_S1x64 0 q

/-- The stacked second weight matrix: row l is row l mod 64 of the matrix. -/
theorem blk8 (c : Dev nD) (t : Fin cfg0.N) (l : Fin 128) (k : Fin 64) :
    iblk m c 8 t (ix2 l k) = (m ((c : Thread nD τ).loc main_arg7)) (ix2 (entry l) k) := by
  obtain ⟨-, -, -, -, -, -, -, -, -, -, -, -, -, -, -, -, -, e0, e1, -⟩ := idx_facts t
  show V m c main_v3 (((cfg0.win 8).blk t).view.emb (ix2 l k)) = _
  rw [V_v3]
  have hemb : ((cfg0.win 8).blk t).view.emb (ix2 l k) = ix2 l k := by
    funext a; apply Fin.ext
    match a with
    | ⟨0, _⟩ => show win0_8.index t (0 : Fin 2) * 128 + 1 * l.val = l.val; omega
    | ⟨1, _⟩ => show win0_8.index t (1 : Fin 2) * 64 + 1 * k.val = k.val; omega
  rw [hemb]
  by_cases hl : l.val < 64
  · exact concat_rows_top _ _ concatenates_S64x64_S64x64_S128x64_d0 (entry l) l k (by
      show l.val = l.val % 64; omega)
  · exact concat_rows_bottom _ _ concatenates_S64x64_S64x64_S128x64_d0 (entry l) l k (by
      show l.val = 64 + l.val % 64; have := l.isLt; omega)

theorem blk9 (c : Dev nD) (t : Fin cfg0.N) (k : Fin 64) :
    iblk m c 9 t (ix2 (0 : Fin 1) k) = (m ((c : Thread nD τ).loc main_arg8)) (ix1 k) := by
  obtain ⟨-, -, -, -, -, -, -, -, -, -, -, -, -, -, -, -, -, -, -, e0, e1, -⟩ := idx_facts t
  show V m c main_v6 (((cfg0.win 9).blk t).view.emb (ix2 (0 : Fin 1) k)) = _
  rw [V_v6]
  have hemb : ((cfg0.win 9).blk t).view.emb (ix2 (0 : Fin 1) k) = ix2 (0 : Fin 1) k := by
    funext a; apply Fin.ext
    match a with
    | ⟨0, _⟩ => show win0_9.index t (0 : Fin 2) * 1 + 1 * 0 = 0; omega
    | ⟨1, _⟩ => show win0_9.index t (1 : Fin 2) * 64 + 1 * k.val = k.val; omega
  rw [hemb]
  exact shapeCast_a_1a_apply _ shapeCasts_S64_S1x64 0 k

theorem blk10 (c : Dev nD) (t : Fin cfg0.N) (k : Fin 64) (q : Fin 64) :
    iblk m c 10 t (ix2 k q) = (m ((c : Thread nD τ).loc main_arg9)) (ix2 k q) := by
  obtain ⟨-, -, -, -, -, -, -, -, -, -, -, -, -, -, -, -, -, -, -, -, -, e0, e1, -⟩ := idx_facts t
  show V m c main_arg9 (((cfg0.win 10).blk t).view.emb (ix2 k q)) = _
  rw [V_main_arg9]
  refine congrArg _ (funext fun a => Fin.ext ?_)
  match a with
  | ⟨0, _⟩ => show win0_10.index t (0 : Fin 2) * 64 + 1 * k.val = k.val; omega
  | ⟨1, _⟩ => show win0_10.index t (1 : Fin 2) * 64 + 1 * q.val = q.val; omega

theorem blk11 (c : Dev nD) (t : Fin cfg0.N) (q : Fin 64) :
    iblk m c 11 t (ix2 (0 : Fin 1) q) = (m ((c : Thread nD τ).loc main_arg10)) (ix1 q) := by
  obtain ⟨-, -, -, -, -, -, -, -, -, -, -, -, -, -, -, -, -, -, -, -, -, -, -, e0, e1, -⟩ := idx_facts t
  show V m c main_v7 (((cfg0.win 11).blk t).view.emb (ix2 (0 : Fin 1) q)) = _
  rw [V_v7]
  have hemb : ((cfg0.win 11).blk t).view.emb (ix2 (0 : Fin 1) q) = ix2 (0 : Fin 1) q := by
    funext a; apply Fin.ext
    match a with
    | ⟨0, _⟩ => show win0_11.index t (0 : Fin 2) * 1 + 1 * 0 = 0; omega
    | ⟨1, _⟩ => show win0_11.index t (1 : Fin 2) * 64 + 1 * q.val = q.val; omega
  rw [hemb]
  exact shapeCast_a_1a_apply _ shapeCasts_S64_S1x64 0 q

/-! ## What point t writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point t writes back block t of the output array of the argument arrays. -/
theorem flushed_eq (c : Dev nD) (t : Fin cfg0.N) :
    (dats m 0 c).flushed 12 t = ((cfg0.win 12).blk t).view.read (Elt Ideal) (outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed12]
  unfold out0_12
  rw [View.canon_unit_zero hz2]
  simp only [View.ld_unit_zero (S := S2000x64) hz2, View.ld_unit_zero (S := S64x96) hz2, View.ld_unit_zero (S := S1x96) hz2,
    View.ld_unit_zero (S := S96x64) hz2, View.ld_unit_zero (S := S1x64) hz2, View.ld_unit_zero (S := S2000x8x128) hz3,
    View.ld_unit_zero (S := S128x64) hz2, View.ld_unit_zero (S := S64x64) hz2]
  funext j
  obtain ⟨p, q, rfl⟩ : ∃ (p : Fin 2000) (q : Fin 128), j = ix2 p q := ⟨j 0, j 1, eq_ix2 j⟩
  obtain ⟨-, -, -, -, -, -, -, -, -, -, -, -, -, -, -, -, -, -, -, -, -, -, -, -, -, e0, e1⟩ := idx_facts t
  have hemb : ((cfg0.win 12).blk t).view.emb (ix2 p q) = ix2 (row t p) q := by
    funext a; apply Fin.ext
    match a with
    | ⟨0, _⟩ => show win0_12.index t (0 : Fin 2) * 2000 + 1 * p.val = 2000 * t.val + p.val; omega
    | ⟨1, _⟩ => show win0_12.index t (1 : Fin 2) * 128 + 1 * q.val = q.val; omega
  show k0_pay1 (k0_pay2 (iblk m c 0 t) (iblk m c 1 t) (iblk m c 3 t) (iblk m c 4 t) (iblk m c 5 t) (iblk m c 6 t) (iblk m c 7 t))
      (k0_pay3 (iblk m c 2 t)) (k0_pay4 (iblk m c 8 t)) (iblk m c 9 t) (iblk m c 10 t) (iblk m c 11 t) (ix2 p q)
    = outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 12).blk t).view.emb (ix2 p q))
  rw [hemb, outArray_apply]
  refine (RowValue.stored_apply _ _ _ _ _ _ _ _ _ _ _ _ p q).trans ?_
  unfold outEntry
  simp only [blk0, blk1, blk2, blk3, blk4, blk5, blk6, blk7, blk8, blk9, blk10, blk11]

/-! ## The blocks cover the array -/

theorem mem_blk (t : Fin cfg0.N) (i : S200000x128.Idx) :
    i ∈ ((cfg0.win 12).blk t).view.set ↔ ∀ a : Fin 2, win0_12.index t a * S2000x128.size a ≤ (i a).val
      ∧ (i a).val < win0_12.index t a * S2000x128.size a + S2000x128.size a := by
  show i ∈ ((View.whole main_v8).slice (win0_12.rect t)).set ↔ _
  rw [View.set_slice_whole, Rect.mem_set_unit]
  exact Iff.rfl

theorem cover (i : S200000x128.Idx) :
    ∃ t : Fin cfg0.N, (cfg0.win 12).flush t = true ∧ i ∈ ((cfg0.win 12).blk t).view.set := by
  have hi0 : (i 0).val < 200000 := (i 0).isLt
  have hi1 : (i 1).val < 128 := (i 1).isLt
  let t : Fin cfg0.N := ⟨(i 0).val / 2000, lt_of_lt_of_eq (by omega : (i 0).val / 2000 < 100) N_0.symm⟩
  obtain ⟨-, -, -, -, -, -, -, -, -, -, -, -, -, -, -, -, -, -, -, -, -, -, -, -, -, e0, e1⟩ := idx_facts t
  have e0' : win0_12.index t (0 : Fin 2) = (i 0).val / 2000 := e0
  refine ⟨t, flush0_12 t, ?_⟩
  rw [mem_blk]
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 128 ≤ (i 1).val ∧ (i 1).val < win0_12.index t (1 : Fin 2) * 128 + 128; omega

/-! ## The array after the run, and the run -/

theorem final (c : Dev nD) : (dats m 0 c).arrAt 12 cfg0.N = outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 _ (fun t _ => flushed_eq m c t) cover

/-- Every weakly fair execution of the idealized kernel ends with the result array at the output array of the arguments,
    the arguments unchanged. -/
theorem run : θ_run defs (onTc (τ := τ) (main (F := Ideal))) ⟨m, fun _ => 0, ρ⟩ fun r => ∀ c : Dev nD,
      r.2.mem ((c : Thread nD τ).loc main_v8) = outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.ReferenceRow.lean ====
/-
  The reference's result array, read at an entry.

  Entry (n, c) of the reference's result is the plain row of the network (RowMath) of node n: the features and hidden
  values joined before the first layer, the mailbox summed over its 16 messages, the quotient by the square root of the
  sum of squares. Each stage of the reference's run is read at an index from its operands; a product is a sum over the
  contracted coordinate, a sum along an axis a sum over that axis's coordinate, a broadcast the operand at the kept
  coordinates.
-/
import proofs.«112432_j49349174231511_2_alg».proof.Proof.Gen.ReferenceIdeal.Read
import proofs.«112432_j49349174231511_2_alg».proof.Proof.RowMath
import proofs.«112432_j49349174231511_2_alg».proof.Proof.LibConcatHalves
import Idealize.ShloMosaic.Lib.ValueIdx
import Idealize.ShloMosaic.PureOps.Ideal.Laws

open scoped BigOperators

noncomputable section

namespace Cert.ReferenceIdeal.RowValue

open Cert.ReferenceIdeal Cert.ReferenceIdeal.Read Idealize.ShloMosaic Idealize.ShloMosaic.ValueIdx Cert.NodeNet

/-! ## The stages' index maps at an index given by coordinates -/

section idx
variable (n : Fin 200000)

theorem l1 (k : Fin 96) (j : Fin 128) : lidx_main_v1 (ix2 n k) j = ix2 n j :=
  funext fun a => Fin.ext (by match a with | ⟨0, _⟩ => rfl | ⟨1, _⟩ => rfl)
theorem r1 (k : Fin 96) (j : Fin 128) : ridx_main_v1 (ix2 n k) j = ix2 j k :=
  funext fun a => Fin.ext (by match a with | ⟨0, _⟩ => rfl | ⟨1, _⟩ => rfl)
theorem b1 (k : Fin 96) : idx_main_v2 (idx_main_v3 (ix2 n k)) = ix1 k :=
  funext fun a => Fin.ext (by match a with | ⟨0, _⟩ => rfl)
theorem l6 (q : Fin 64) (k : Fin 96) : lidx_main_v6 (ix2 n q) k = ix2 n k :=
  funext fun a => Fin.ext (by match a with | ⟨0, _⟩ => rfl | ⟨1, _⟩ => rfl)
theorem r6 (q : Fin 64) (k : Fin 96) : ridx_main_v6 (ix2 n q) k = ix2 k q :=
  funext fun a => Fin.ext (by match a with | ⟨0, _⟩ => rfl | ⟨1, _⟩ => rfl)
theorem b6 (q : Fin 64) : idx_main_v7 (idx_main_v8 (ix2 n q)) = ix1 q :=
  funext fun a => Fin.ext (by match a with | ⟨0, _⟩ => rfl)
theorem i11 (e : Fin 64) (d : Fin 16) : idx_main_v11 (ix2 n e) d = ix3 n d e :=
  funext fun a => Fin.ext (by match a with | ⟨0, _⟩ => rfl | ⟨1, _⟩ => rfl | ⟨2, _⟩ => rfl)
theorem l12 (k : Fin 64) (e : Fin 64) : lidx_main_v12 (ix2 n k) e = ix2 n e :=
  funext fun a => Fin.ext (by match a with | ⟨0, _⟩ => rfl | ⟨1, _⟩ => rfl)
theorem r12 (k : Fin 64) (e : Fin 64) : ridx_main_v12 (ix2 n k) e = ix2 e k :=
  funext fun a => Fin.ext (by match a with | ⟨0, _⟩ => rfl | ⟨1, _⟩ => rfl)
theorem b12 (k : Fin 64) : idx_main_v13 (idx_main_v14 (ix2 n k)) = ix1 k :=
  funext fun a => Fin.ext (by match a with | ⟨0, _⟩ => rfl)
theorem l17 (q : Fin 64) (k : Fin 64) : lidx_main_v17 (ix2 n q) k = ix2 n k :=
  funext fun a => Fin.ext (by match a with | ⟨0, _⟩ => rfl | ⟨1, _⟩ => rfl)
theorem r17 (q : Fin 64) (k : Fin 64) : ridx_main_v17 (ix2 n q) k = ix2 k q :=
  funext fun a => Fin.ext (by match a with | ⟨0, _⟩ => rfl | ⟨1, _⟩ => rfl)
theorem b17 (q : Fin 64) : idx_main_v18 (idx_main_v19 (ix2 n q)) = ix1 q :=
  funext fun a => Fin.ext (by match a with | ⟨0, _⟩ => rfl)
theorem i21 (c : Fin 128) : idx_main_call2_v1 (ix1 n) c = ix2 n c :=
  funext fun a => Fin.ext (by match a with | ⟨0, _⟩ => rfl | ⟨1, _⟩ => rfl)
theorem i22 (c : Fin 128) : idx_main_call2_v2 (idx_main_v24 (ix2 n c)) = ix1 n :=
  funext fun a => Fin.ext (by match a with | ⟨0, _⟩ => rfl)

end idx

/-! ## The stages at an entry -/

theorem joined_apply (x0 : (⟨S200000x64, .f32⟩ : BufTy).Contents (Elt Ideal)) (x1 : (⟨S200000x64, .f32⟩ : BufTy).Contents (Elt Ideal)) (n : Fin 200000) (j : Fin 128) :
    val_main_v0 (F := Ideal) x0 x1 (ix2 n j) = (Fin.append (fun j => x0 (ix2 n j)) (fun j => x1 (ix2 n j)) : Fin 128 → EReal) j := by
  unfold val_main_v0
  exact concat_row x0 x1 _ n j

theorem hidden1_apply (x0 : (⟨S200000x64, .f32⟩ : BufTy).Contents (Elt Ideal)) (x1 : (⟨S200000x64, .f32⟩ : BufTy).Contents (Elt Ideal)) (x3 : (⟨S128x96, .f32⟩ : BufTy).Contents (Elt Ideal)) (x4 : (⟨S96, .f32⟩ : BufTy).Contents (Elt Ideal)) (n : Fin 200000) (k : Fin 96) :
    val_main_v5 (F := Ideal) x0 x1 x3 x4 (ix2 n k) = max (dense (Fin.append (fun j => x0 (ix2 n j)) (fun j => x1 (ix2 n j)) : Fin 128 → EReal) (fun j k => x3 (ix2 j k)) (fun k => x4 (ix1 k)) k) 0 := by
  rw [val_main_v5_apply, val_main_v4_apply, val_main_v1_apply, val_main_v3_apply, val_main_v2_apply, val_main_call0_v0_apply,
    val_main_call0_cst_apply]
  simp only [l1, r1, b1, joined_apply, Ideal.maximumf_def, Ideal.addf_def, Ideal.ofBits_def, Ideal.ofBits_zero_f32]
  rfl

theorem out1_apply (x0 : (⟨S200000x64, .f32⟩ : BufTy).Contents (Elt Ideal)) (x1 : (⟨S200000x64, .f32⟩ : BufTy).Contents (Elt Ideal)) (x3 : (⟨S128x96, .f32⟩ : BufTy).Contents (Elt Ideal)) (x4 : (⟨S96, .f32⟩ : BufTy).Contents (Elt Ideal)) (x5 : (⟨S96x64, .f32⟩ : BufTy).Contents (Elt Ideal)) (x6 : (⟨S64, .f32⟩ : BufTy).Contents (Elt Ideal)) (n : Fin 200000) (q : Fin 64) :
    val_main_v10 (F := Ideal) x0 x1 x3 x4 x5 x6 (ix2 n q) = head (dense (Fin.append (fun j => x0 (ix2 n j)) (fun j => x1 (ix2 n j)) : Fin 128 → EReal) (fun j k => x3 (ix2 j k)) (fun k => x4 (ix1 k))) (fun k q => x5 (ix2 k q)) (fun q => x6 (ix1 q)) q := by
  rw [val_main_v10_apply, val_main_v9_apply, val_main_v6_apply, val_main_v8_apply, val_main_v7_apply]
  simp only [l6, r6, b6, hidden1_apply, Ideal.hostUnary_tanh_def, Ideal.addf_def]
  rfl

theorem mailsum_apply (x2 : (⟨S200000x16x64, .f32⟩ : BufTy).Contents (Elt Ideal)) (n : Fin 200000) (e : Fin 64) :
    val_main_v11 (F := Ideal) x2 (ix2 n e) = ∑ d : Fin 16, x2 (ix3 n d e) := by
  rw [val_main_v11_apply, val_main_cst_apply]
  simp only [i11, Ideal.ofBits_def, Ideal.ofBits_zero_f32, zero_add]

theorem hidden2_apply (x2 : (⟨S200000x16x64, .f32⟩ : BufTy).Contents (Elt Ideal)) (x7 : (⟨S64x64, .f32⟩ : BufTy).Contents (Elt Ideal)) (x8 : (⟨S64, .f32⟩ : BufTy).Contents (Elt Ideal)) (n : Fin 200000) (k : Fin 64) :
    val_main_v16 (F := Ideal) x2 x7 x8 (ix2 n k) = max (dense (fun e => ∑ d : Fin 16, x2 (ix3 n d e)) (fun e k => x7 (ix2 e k)) (fun k => x8 (ix1 k)) k) 0 := by
  rw [val_main_v16_apply, val_main_v15_apply, val_main_v12_apply, val_main_v14_apply, val_main_v13_apply, val_main_call1_v0_apply,
    val_main_call1_cst_apply]
  simp only [l12, r12, b12, mailsum_apply, Ideal.maximumf_def, Ideal.addf_def, Ideal.ofBits_def, Ideal.ofBits_zero_f32]
  rfl

theorem out2_apply (x2 : (⟨S200000x16x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (n : Fin 200000) (q : Fin 64) :
    val_main_v21 (F := Ideal) x2 x7 x8 x9 x10 (ix2 n q) = head (dense (fun e => ∑ d : Fin 16, x2 (ix3 n d e)) (fun e k => x7 (ix2 e k)) (fun k => x8 (ix1 k))) (fun k q => x9 (ix2 k q)) (fun q => x10 (ix1 q)) q := by
  rw [val_main_v21_apply, val_main_v20_apply, val_main_v17_apply, val_main_v19_apply, val_main_v18_apply]
  simp only [l17, r17, b17, hidden2_apply, Ideal.hostUnary_tanh_def, Ideal.addf_def]
  rfl

theorem vec_apply (x0 : (⟨S200000x64, .f32⟩ : BufTy).Contents (Elt Ideal)) (x1 : (⟨S200000x64, .f32⟩ : BufTy).Contents (Elt Ideal)) (x2 : (⟨S200000x16x64, .f32⟩ : BufTy).Contents (Elt Ideal)) (x3 : (⟨S128x96, .f32⟩ : BufTy).Contents (Elt Ideal)) (x4 : (⟨S96, .f32⟩ : BufTy).Contents (Elt Ideal)) (x5 : (⟨S96x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (n : Fin 200000) (c : Fin 128) :
    val_main_v22 (F := Ideal) x0 x1 x2 x3 x4 x5 x6 x7 x8 x9 x10 (ix2 n c) = refVec (fun j => x0 (ix2 n j)) (fun j => x1 (ix2 n j)) (fun d e => x2 (ix3 n d e)) (fun j k => x3 (ix2 j k)) (fun k => x4 (ix1 k)) (fun k q => x5 (ix2 k q)) (fun q => x6 (ix1 q)) (fun e k => x7 (ix2 e k)) (fun k => x8 (ix1 k)) (fun k q => x9 (ix2 k q)) (fun q => x10 (ix1 q)) c := by
  unfold val_main_v22
  rw [concat_row]
  unfold refVec
  simp only [out1_apply, out2_apply]

theorem sumsq_apply (x0 : (⟨S200000x64, .f32⟩ : BufTy).Contents (Elt Ideal)) (x1 : (⟨S200000x64, .f32⟩ : BufTy).Contents (Elt Ideal)) (x2 : (⟨S200000x16x64, .f32⟩ : BufTy).Contents (Elt Ideal)) (x3 : (⟨S128x96, .f32⟩ : BufTy).Contents (Elt Ideal)) (x4 : (⟨S96, .f32⟩ : BufTy).Contents (Elt Ideal)) (x5 : (⟨S96x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (n : Fin 200000) :
    val_main_call2_v1 (F := Ideal) x0 x1 x2 x3 x4 x5 x6 x7 x8 x9 x10 (ix1 n) = sumsq (refVec (fun j => x0 (ix2 n j)) (fun j => x1 (ix2 n j)) (fun d e => x2 (ix3 n d e)) (fun j k => x3 (ix2 j k)) (fun k => x4 (ix1 k)) (fun k q => x5 (ix2 k q)) (fun q => x6 (ix1 q)) (fun e k => x7 (ix2 e k)) (fun k => x8 (ix1 k)) (fun k q => x9 (ix2 k q)) (fun q => x10 (ix1 q))) := by
  rw [val_main_call2_v1_apply, val_main_call2_cst_apply]
  simp only [i21, val_main_call2_v0_apply, vec_apply, Ideal.mulf_def, Ideal.ofBits_def, Ideal.ofBits_zero_f32, zero_add]
  rfl

/-- Entry (n, c) of the reference's result: the plain row of node n at c. -/
theorem result_apply (x0 : (⟨S200000x64, .f32⟩ : BufTy).Contents (Elt Ideal)) (x1 : (⟨S200000x64, .f32⟩ : BufTy).Contents (Elt Ideal)) (x2 : (⟨S200000x16x64, .f32⟩ : BufTy).Contents (Elt Ideal)) (x3 : (⟨S128x96, .f32⟩ : BufTy).Contents (Elt Ideal)) (x4 : (⟨S96, .f32⟩ : BufTy).Contents (Elt Ideal)) (x5 : (⟨S96x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (n : Fin 200000) (c : Fin 128) :
    val_main_v25 (F := Ideal) x0 x1 x2 x3 x4 x5 x6 x7 x8 x9 x10 (ix2 n c) = refRow (fun j => x0 (ix2 n j)) (fun j => x1 (ix2 n j)) (fun d e => x2 (ix3 n d e)) (fun j k => x3 (ix2 j k)) (fun k => x4 (ix1 k)) (fun k q => x5 (ix2 k q)) (fun q => x6 (ix1 q)) (fun e k => x7 (ix2 e k)) (fun k => x8 (ix1 k)) (fun k q => x9 (ix2 k q)) (fun q => x10 (ix1 q)) c := by
  rw [val_main_v25_apply, val_main_v24_apply, val_main_v23_apply, val_main_call2_v2_apply]
  simp only [i22, vec_apply, sumsq_apply, Ideal.hostDivf_def, Ideal.hostUnary_sqrt_def]
  rfl

end Cert.ReferenceIdeal.RowValue

end
-- ==== Proof.Precondition.lean ====
/-
  What the precondition says, and the reference's result under it.

  The precondition is a conjunction of twelve "all entries satisfy …" tests: |x| < +∞ for every entry of each of the eleven
  argument arrays, and Σ r² > 0 for every node's joined vector r (the reference divides by √(Σ r²), and 0 / 0 is outside
  its domain). Of these the comparison of the two programs uses three: the mailbox is finite, the second network's first
  weight matrix is finite (distributivity of the lane arrangement), and every node's sum of squares is positive (the
  quotient by the root against the product with the reciprocal root). The sum of squares the precondition tests is, term
  for term, the one the reference computes. Under these facts the reference's result array is the output array of
  ArraySpec.
-/
import proofs.«112432_j49349174231511_2_alg».proof.Proof.ReferenceRow
import proofs.«112432_j49349174231511_2_alg».proof.Proof.ArraySpec
import proofs.«112432_j49349174231511_2_alg».proof.Pre_finite_inputs
import proofs.«112432_j49349174231511_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.ReferenceIdeal.PreDecode

open Cert.ReferenceIdeal Cert.ReferenceIdeal.Read Idealize.ShloMosaic Idealize.ShloMosaic.ValueIdx Cert.NodeNet

/-- A rank-0 array has one index. -/
instance : Subsingleton S_.Idx := ⟨fun a b => funext fun d => d.elim0⟩

theorem and1 : ∀ (a b : BitVec 1), IntOp.andi a b = 1#1 ↔ a = 1#1 ∧ b = 1#1 := by decide

/-- An extended real whose absolute value is below +∞ is a real number. -/
theorem real_of_abs_lt_top (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

theorem ofBool_eq_one (b : Bool) : BitVec.ofBool b = 1#1 ↔ b = true := by cases b <;> decide

/-- A comparison "greater than the zero word" that holds says the value is positive. -/
theorem pos_of_gt_zero (s : EReal) (h : Ideal.cmp .ogt s (Ideal.ofBits .f32 0x00000000#32) = 1#1) : 0 < s := by
  rw [Ideal.ofBits_zero_f32] at h
  have h' : BitVec.ofBool (decide ((0 : EReal) < s)) = 1#1 := h
  exact of_decide_eq_true ((ofBool_eq_one _).1 h')

/-- The three facts the comparison uses, read off the precondition. -/
theorem facts (a0 : FVec Ideal S200000x64 .f32) (a1 : FVec Ideal S200000x64 .f32) (a2 : FVec Ideal S200000x16x64 .f32) (a3 : FVec Ideal S128x96 .f32) (a4 : FVec Ideal S96 .f32) (a5 : FVec Ideal S96x64 .f32) (a6 : FVec Ideal S64 .f32) (a7 : FVec Ideal S64x64 .f32) (a8 : FVec Ideal S64 .f32) (a9 : FVec Ideal S64x64 .f32) (a10 : FVec Ideal S64 .f32)
    (h : Cert.Pre_finite_inputs.fn (F := Ideal) a0 a1 a2 a3 a4 a5 a6 a7 a8 a9 a10 = fun _ => 1#1) :
    (∀ i, ∃ r : ℝ, a2 i = r) ∧ (∀ i, ∃ r : ℝ, a7 i = r)
      ∧ ∀ n : Fin 200000, 0 < sumsq (refVec (fun j => a0 (ix2 n j)) (fun j => a1 (ix2 n j)) (fun d e => a2 (ix3 n d e)) (fun j k => a3 (ix2 j k)) (fun k => a4 (ix1 k)) (fun k q => a5 (ix2 k q)) (fun q => a6 (ix1 q)) (fun e k => a7 (ix2 e k)) (fun k => a8 (ix1 k)) (fun k q => a9 (ix2 k q)) (fun q => a10 (ix1 q))) := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  simp only [andi, and1] at e
  obtain ⟨⟨⟨⟨⟨⟨⟨⟨⟨⟨⟨h0, h1⟩, h2⟩, h3⟩, h4⟩, h5⟩, h6⟩, h7⟩, h8⟩, h9⟩, h10⟩, hs⟩ := e
  clear h0 h1 h3 h4 h5 h6 h8 h9 h10
  refine ⟨fun i => ?_, fun i => ?_, fun n => ?_⟩
  · exact real_of_abs_lt_top (a2 i) (Host.reduce_andi_all _ _ _ _ ix0 h2 i)
  · exact real_of_abs_lt_top (a7 i) (Host.reduce_andi_all _ _ _ _ ix0 h7 i)
  · have hn := Host.reduce_andi_all _ _ _ _ ix0 hs (ix1 n)
    rw [cmpf_apply] at hn
    have hpos : FloatOps.cmpf (F := Ideal) .ogt (val_main_call2_v1 (F := Ideal) a0 a1 a2 a3 a4 a5 a6 a7 a8 a9 a10 (ix1 n)) (Ideal.ofBits .f32 0x00000000#32) = 1#1 := by
      convert hn using 2
      · refine congrFun ?_ (ix1 n)
        rfl
      · rfl
    have hpos : Ideal.cmp .ogt (val_main_call2_v1 (F := Ideal) a0 a1 a2 a3 a4 a5 a6 a7 a8 a9 a10 (ix1 n)) (Ideal.ofBits .f32 0x00000000#32) = 1#1 := hpos
    rw [RowValue.sumsq_apply] at hpos
    exact pos_of_gt_zero _ hpos

/-- Under the precondition the reference's result array is the output array of the arguments. -/
theorem result_eq (a0 : FVec Ideal S200000x64 .f32) (a1 : FVec Ideal S200000x64 .f32) (a2 : FVec Ideal S200000x16x64 .f32) (a3 : FVec Ideal S128x96 .f32) (a4 : FVec Ideal S96 .f32) (a5 : FVec Ideal S96x64 .f32) (a6 : FVec Ideal S64 .f32) (a7 : FVec Ideal S64x64 .f32) (a8 : FVec Ideal S64 .f32) (a9 : FVec Ideal S64x64 .f32) (a10 : FVec Ideal S64 .f32)
    (h : Cert.Pre_finite_inputs.fn (F := Ideal) a0 a1 a2 a3 a4 a5 a6 a7 a8 a9 a10 = fun _ => 1#1) :
    val_main_v25 (F := Ideal) a0 a1 a2 a3 a4 a5 a6 a7 a8 a9 a10 = outArray a0 a1 a2 a3 a4 a5 a6 a7 a8 a9 a10 := by
  obtain ⟨hmb, hw, hs⟩ := facts a0 a1 a2 a3 a4 a5 a6 a7 a8 a9 a10 h
  funext i
  obtain ⟨n, c, rfl⟩ : ∃ (n : Fin 200000) (c : Fin 128), i = ix2 n c := ⟨i 0, i 1, eq_ix2 i⟩
  rw [RowValue.result_apply, outArray_apply]
  unfold outEntry
  exact (kerRow_eq_refRow (fun j => a0 (ix2 n j)) (fun j => a1 (ix2 n j)) (fun d e => a2 (ix3 n d e)) (fun j k => a3 (ix2 j k)) (fun k => a4 (ix1 k)) (fun k q => a5 (ix2 k q)) (fun q => a6 (ix1 q)) (fun e k => a7 (ix2 e k)) (fun k => a8 (ix1 k)) (fun k q => a9 (ix2 k q)) (fun q => a10 (ix1 q)) (fun d e => hmb _) (fun e k => hw _) (hs n) c).symm

end Cert.ReferenceIdeal.PreDecode

end
-- ==== Proof.lean ====
/-
  A node network on 200000 nodes (two small two-layer networks per node, their 64 + 64 outputs joined and divided by
  their Euclidean norm): the kernel against its reference, on the extended reals.

  The kernel works on blocks of 2000 nodes. It differs from the reference in three arrangements: the first layer of the
  first network is the sum of two products with the upper and lower halves of its weight matrix, where the reference
  joins the two inputs first; the mailbox [16, 64] is read as [8, 128], summed over 8 rows and multiplied by the weight
  matrix stacked twice, where the reference sums 16 messages and multiplies once; and the joined vector r is multiplied
  by (Σ r²)^(-1/2), where the reference divides by √(Σ r²).  The first is associativity of a sum.  The second is
  distributivity, which on the extended reals needs the mailbox and the weights finite: the precondition says so.  The
  third holds when Σ r² > 0; at Σ r² = 0 the reference's quotient is 0 / 0, outside its domain, and the precondition
  excludes it (every node's Σ r² is positive).

  RowMath has the mathematics of one row; ArraySpec the output array as one function of the arguments; KernelRow and
  KernelArray read the kernel's stored blocks and join them into that array; ReferenceRow reads the reference's result
  at an entry; Precondition reads the three facts off the precondition and concludes for the reference. Here the five
  claims are assembled: the three runs (the kernels' from their generated frames, the reference's from its generated
  run), the empty ledger, and the equality of the two results.
-/
import proofs.«112432_j49349174231511_2_alg».proof.Defs
import proofs.«112432_j49349174231511_2_alg».proof.Proof.Gen.Kernel
import proofs.«112432_j49349174231511_2_alg».proof.Proof.Gen.Kernel.Skeleton
import proofs.«112432_j49349174231511_2_alg».proof.Proof.Gen.Kernel.Launch
import proofs.«112432_j49349174231511_2_alg».proof.Proof.Gen.Kernel.Points
import proofs.«112432_j49349174231511_2_alg».proof.Proof.Gen.Kernel.Frame
import proofs.«112432_j49349174231511_2_alg».proof.Proof.Gen.KernelIdeal
import proofs.«112432_j49349174231511_2_alg».proof.Proof.Gen.KernelIdeal.Skeleton
import proofs.«112432_j49349174231511_2_alg».proof.Proof.Gen.KernelIdeal.Launch
import proofs.«112432_j49349174231511_2_alg».proof.Proof.Gen.KernelIdeal.Points
import proofs.«112432_j49349174231511_2_alg».proof.Proof.Gen.KernelIdeal.Frame
import proofs.«112432_j49349174231511_2_alg».proof.Proof.Gen.ReferenceIdeal
import proofs.«112432_j49349174231511_2_alg».proof.Proof.Gen.Pre_finite_inputs
import proofs.«112432_j49349174231511_2_alg».proof.Proof.Gen.KernelIdeal.Value
import proofs.«112432_j49349174231511_2_alg».proof.Proof.Gen.ReferenceIdeal.Run
import proofs.«112432_j49349174231511_2_alg».proof.Proof.Gen.ReferenceIdeal.Read
import proofs.«112432_j49349174231511_2_alg».proof.Proof.KernelArray
import proofs.«112432_j49349174231511_2_alg».proof.Proof.Precondition
import Idealize.ShloMosaic.Adequacy
import Idealize.ShloMosaic.Init

noncomputable section

namespace Cert.Proof

open Idealize.ShloMosaic Idealize.ShloMosaic.TcCoe Idealize.SL.Sem Cert.NodeNet

/-- The word-level kernel runs and leaves its arguments as they were: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both idealized programs end with the output array of ArraySpec of the (agreeing) arguments: the kernel by its
    blocks, the reference by the row comparison under the precondition's three facts. -/
theorem algebraic : Cert.algebraic_KernelIdeal_ReferenceIdeal := by
  intro m ρ m' ρ' hpre hagree
  refine ⟨fun c => outArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v25_eq, e0, e1, e2, e3, e4, e5, e6, e7, e8, e9, e10]
  exact Cert.ReferenceIdeal.PreDecode.result_eq _ _ _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
